-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S256x128 .f32) (main_arg7 : FVec F S256x128 .f32) (main_arg8 : FVec F S128 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x128 .f32 := Host.absf main_arg6
  let main_cst_6 : FVec F S_ .f32 := constant S_ .f32 0x7F800000#32
  let main_v20 : FVec F S256x128 .f32 := broadcastInDim S256x128 ![] bcast_S_S256x128 main_cst_6
  let main_v21 : IVec S256x128 1 := cmpf .olt main_v19 main_v20
  let main_c_7 : IVec S_ 1 := constantI S_ 1 1#1
  let main_v22 : IVec S_ 1 := (fun x v => Host.reduce IntOp.andi x v reducesTo_S256x128_S_d0_1 h_S_) main_v21 main_c_7
  let main_v23 : IVec S_ 1 := andi main_v18 main_v22
  let main_v24 : FVec F S256x128 .f32 := Host.absf main_arg7
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x256 .f32) (main_arg1 : IVec S800000 32) (main_arg2 : IVec S800000 32) (main_arg3 : FVec F S256x256 .f32) (main_arg4 : FVec F S256x256 .f32) (main_arg5 : FVec F S256 .f32) (main_arg6 : FVec F S256x128 .f32) (main_arg7 : FVec F S256x128 .f32) (main_arg8 : FVec F S128 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_v13 main_v16
-- ==== Kernel.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x256 : Shape := ⟨2, ![800000, 256]⟩
abbrev S50000x128 : Shape := ⟨2, ![50000, 128]⟩
abbrev S2000x256 : Shape := ⟨2, ![2000, 256]⟩
abbrev S2000x1 : Shape := ⟨2, ![2000, 1]⟩
abbrev S2000x128 : Shape := ⟨2, ![2000, 128]⟩
abbrev S1x256 : Shape := ⟨2, ![1, 256]⟩
abbrev S800000x128 : Shape := ⟨2, ![800000, 128]⟩
abbrev S1x128 : Shape := ⟨2, ![1, 128]⟩

abbrev nBuf : Space → Nat
  | .hbm => 51
  | .vmem => 24
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S256x256, .f32⟩
  | .hbm, ⟨4, _⟩ => ⟨S256x256, .f32⟩
  | .hbm, ⟨5, _⟩ => ⟨S256, .f32⟩
  | .hbm, ⟨6, _⟩ => ⟨S256x128, .f32⟩
  | .hbm, ⟨7, _⟩ => ⟨S256x128, .f32⟩
  | .hbm, ⟨8, _⟩ => ⟨S128, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x256, .f32⟩
  | .hbm, ⟨31, _⟩ => ⟨S_, .f32⟩
  | .hbm, ⟨32, _⟩ => ⟨S50000x256, .f32⟩
  | .hbm, ⟨33, _⟩ => ⟨S800000x1, .i32⟩
  | .hbm, ⟨34, _⟩ => ⟨S50000x256, .f32⟩
  | .hbm, ⟨35, _⟩ => ⟨S50000x256, .f32⟩
  | .hbm, ⟨36, _⟩ => ⟨S50000x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S_, .f32⟩
  | .hbm, ⟨47, _⟩ => ⟨S50000x128, .f32⟩
  | .hbm, ⟨48, _⟩ => ⟨S800000x1, .i32⟩
  | .hbm, ⟨49, _⟩ => ⟨S50000x128, .f32⟩
  | .hbm, ⟨50, _⟩ => ⟨S50000x128, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S2000x1, .f32⟩
  | .local _ .vmem, ⟨5, _⟩ => ⟨S2000x1, .f32⟩
  | .local _ .vmem, ⟨6, _⟩ => ⟨S256x256, .f32⟩
  | .local _ .vmem, ⟨7, _⟩ => ⟨S256x256, .f32⟩
  | .local _ .vmem, ⟨8, _⟩ => ⟨S256, .f32⟩
  | .local _ .vmem, ⟨9, _⟩ => ⟨S256x128, .f32⟩
  | .local _ .vmem, ⟨10, _⟩ => ⟨S2000x256, .f32⟩
  | .local _ .vmem, ⟨11, _⟩ => ⟨S2000x256, .f32⟩
  | .local _ .vmem, ⟨12, _⟩ => ⟨S2000x128, .f32⟩
  | .local _ .vmem, ⟨13, _⟩ => ⟨S2000x128, .f32⟩
  | .local _ .vmem, ⟨14, _⟩ => ⟨S2000x256, .f32⟩
  | .local _ .vmem, ⟨15, _⟩ => ⟨S2000x256, .f32⟩
  | .local _ .vmem, ⟨16, _⟩ => ⟨S2000x128, .f32⟩
  | .local _ .vmem, ⟨17, _⟩ => ⟨S2000x128, .f32⟩
  | .local _ .vmem, ⟨18, _⟩ => ⟨S2000x1, .f32⟩
  | .local _ .vmem, ⟨19, _⟩ => ⟨S2000x1, .f32⟩
  | .local _ .vmem, ⟨20, _⟩ => ⟨S256x128, .f32⟩
  | .local _ .vmem, ⟨21, _⟩ => ⟨S128, .f32⟩
  | .local _ .vmem, ⟨22, _⟩ => ⟨S2000x128, .f32⟩
  | .local _ .vmem, ⟨23, _⟩ => ⟨S2000x128, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_4 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19_0 : Ref sig .tc := ⟨.hbm, 35, rfl⟩
abbrev main_v19_1 : Ref sig .tc := ⟨.hbm, 36, rfl⟩
abbrev main_c_5 : Ref sig .tc := ⟨.hbm, 37, rfl⟩
abbrev main_v20 : Ref sig .tc := ⟨.hbm, 38, rfl⟩
abbrev main_v21 : Ref sig .tc := ⟨.hbm, 39, rfl⟩
abbrev main_c_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_7 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S_S50000x256 : S_.BroadcastsInDim S50000x256 (![] : Fin 0 → Fin S50000x256.rank)
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  broadcasts_S2000x1_S2000x256 : S2000x1.Broadcasts S2000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S_S50000x128 : S_.BroadcastsInDim S50000x128 (![] : Fin 0 → Fin S50000x128.rank)
  shapeCasts_S2000x128_S2000x128 : S2000x128.ShapeCasts S2000x128
  broadcasts_S2000x1_S2000x128 : S2000x1.Broadcasts S2000x128
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  scatter_S50000_S800000x1_S800000_n_0_0_1_wf : ScatterDims.WF S50000 S800000x1 S800000 [] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .f32 = 32 ∨ (Rect.block (s := S256x256) S256x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256.size a ≤ S256.size a
  hwx0_5 : ∀ i : grid0.Coords, EltTy.bits .f32 = 32 ∨ (Rect.block (s := S256) S256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x128.size a ≤ S256x128.size a
  hwx0_6 : ∀ i : grid0.Coords, EltTy.bits .f32 = 32 ∨ (Rect.block (s := S256x128) S256x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S50000x256.size a
  hwx0_7 : ∀ i : grid0.Coords, EltTy.bits .f32 = 32 ∨ (Rect.block (s := S50000x256) S2000x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S50000x128.size a
  hwx0_8 : ∀ i : grid0.Coords, EltTy.bits .f32 = 32 ∨ (Rect.block (s := S50000x128) S2000x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x128.size a ≤ S50000x128.size a
  hwx1_5 : ∀ i : grid1.Coords, EltTy.bits .f32 = 32 ∨ (Rect.block (s := S50000x128) S2000x128.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S256x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v19_0) S2000x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v19_1) S2000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v19_0) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v29) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v8) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30) S2000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S256x128 : Shape := ⟨2, ![256, 128]⟩
abbrev S128 : Shape := ⟨1, ![128]⟩
abbrev S_ : Shape := ⟨0, ![]⟩
abbrev S800000x1 : Shape := ⟨2, ![800000, 1]⟩
abbrev S800000x256 : Shape := ⟨2, ![800000, 256]⟩
abbrev S50000 : Shape := ⟨1, ![50000]⟩
abbrev S50000x1 : Shape := ⟨2, ![50000, 1]⟩
abbrev S1x256 : Shape := ⟨2, ![1, 256]⟩
abbrev S50000x128 : Shape := ⟨2, ![50000, 128]⟩
abbrev S1x128 : Shape := ⟨2, ![1, 128]⟩

abbrev nBuf : Space → Nat
  | .hbm => 74
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S256x256, .f32⟩
  | .hbm, ⟨4, _⟩ => ⟨S256x256, .f32⟩
  | .hbm, ⟨5, _⟩ => ⟨S256, .f32⟩
  | .hbm, ⟨6, _⟩ => ⟨S256x128, .f32⟩
  | .hbm, ⟨7, _⟩ => ⟨S256x128, .f32⟩
  | .hbm, ⟨8, _⟩ => ⟨S128, .f32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x256, .f32⟩
  | .hbm, ⟨18, _⟩ => ⟨S_, .f32⟩
  | .hbm, ⟨19, _⟩ => ⟨S50000x256, .f32⟩
  | .hbm, ⟨20, _⟩ => ⟨S800000x1, .i32⟩
  | .hbm, ⟨21, _⟩ => ⟨S50000x256, .f32⟩
  | .hbm, ⟨22, _⟩ => ⟨S_, .f32⟩
  | .hbm, ⟨23, _⟩ => ⟨S800000, .f32⟩
  | .hbm, ⟨24, _⟩ => ⟨S_, .f32⟩
  | .hbm, ⟨25, _⟩ => ⟨S50000, .f32⟩
  | .hbm, ⟨26, _⟩ => ⟨S800000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S50000x256, .f32⟩
  | .hbm, ⟨33, _⟩ => ⟨S50000x256, .f32⟩
  | .hbm, ⟨34, _⟩ => ⟨S50000x256, .f32⟩
  | .hbm, ⟨35, _⟩ => ⟨S50000x256, .f32⟩
  | .hbm, ⟨36, _⟩ => ⟨S50000x256, .f32⟩
  | .hbm, ⟨37, _⟩ => ⟨S1x256, .f32⟩
  | .hbm, ⟨38, _⟩ => ⟨S50000x256, .f32⟩
  | .hbm, ⟨39, _⟩ => ⟨S50000x256, .f32⟩
  | .hbm, ⟨40, _⟩ => ⟨S_, .f32⟩
  | .hbm, ⟨41, _⟩ => ⟨S50000x256, .f32⟩
  | .hbm, ⟨42, _⟩ => ⟨S50000x256, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x256, .f32⟩
  | .hbm, ⟨52, _⟩ => ⟨S_, .f32⟩
  | .hbm, ⟨53, _⟩ => ⟨S50000x256, .f32⟩
  | .hbm, ⟨54, _⟩ => ⟨S800000x1, .i32⟩
  | .hbm, ⟨55, _⟩ => ⟨S50000x256, .f32⟩
  | .hbm, ⟨56, _⟩ => ⟨S_, .f32⟩
  | .hbm, ⟨57, _⟩ => ⟨S800000, .f32⟩
  | .hbm, ⟨58, _⟩ => ⟨S_, .f32⟩
  | .hbm, ⟨59, _⟩ => ⟨S50000, .f32⟩
  | .hbm, ⟨60, _⟩ => ⟨S800000x1, .i32⟩
  | .hbm, ⟨61, _⟩ => ⟨S50000, .f32⟩
  | .hbm, ⟨62, _⟩ => ⟨S_, .f32⟩
  | .hbm, ⟨63, _⟩ => ⟨S50000, .f32⟩
  | .hbm, ⟨64, _⟩ => ⟨S50000, .f32⟩
  | .hbm, ⟨65, _⟩ => ⟨S50000x1, .f32⟩
  | .hbm, ⟨66, _⟩ => ⟨S50000x256, .f32⟩
  | .hbm, ⟨67, _⟩ => ⟨S50000x256, .f32⟩
  | .hbm, ⟨68, _⟩ => ⟨S50000x128, .f32⟩
  | .hbm, ⟨69, _⟩ => ⟨S50000x128, .f32⟩
  | .hbm, ⟨70, _⟩ => ⟨S50000x128, .f32⟩
  | .hbm, ⟨71, _⟩ => ⟨S1x128, .f32⟩
  | .hbm, ⟨72, _⟩ => ⟨S50000x128, .f32⟩
  | .hbm, ⟨73, _⟩ => ⟨S50000x128, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_call0_cst : Ref sig .tc := ⟨.hbm, 40, rfl⟩
abbrev main_call0_v0 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_6 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_cst_8 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_9 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  scatter_S50000_S800000x1_S800000_n_0_0_1_wf : ScatterDims.WF S50000 S800000x1 S800000 [] [0] [0] 1
  dot_S50000x256_S256x256_S50000x256_1_0_0_1_n_n_wf : DotDims.WF S50000x256 S256x256 S50000x256 [1] [0] [0] [1] [] []
  dot_S50000x256_S256x128_S50000x128_1_0_0_1_n_n_wf : DotDims.WF S50000x256 S256x128 S50000x128 [1] [0] [0] [1] [] []

variable [Facts₀]

def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf

class Facts : Prop extends Facts₀ where

variable [Facts]
-- ==== Proof.HostValue.lean ====
/-
  What the host operations around the two kernels compute, read off the program.

  Before the first kernel the host builds the aggregate of the node features over the edges and the mean factor (the
  reciprocal of the clamped in-degree, as a column); between the two kernels it aggregates the first kernel's second
  output the same way.  Each is named here as the printed chain of operations applied to the argument arrays, and the
  contents of the buffers at the two kernels' entries are read back to those names.
-/
import proofs.«180790_j71236327571567_2_alg».proof.Proof.Gen.KernelIdeal.Frame
import Idealize.ShloMosaic.Lib.StableHlo.Run
import Idealize.ShloMosaic.PureOps.Ideal

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.StableHlo

/-- The source positions as the gathers take them: a negative position wrapped by the node count, laid out as a column. -/
def srcIdx (x1 : IVec S800000 32) : IVec S800000x1 32 :=
  broadcastInDim S800000x1 ![0] bcast_S800000_S800000x1_0
    (select (cmpi .slt x1 (broadcastInDim S800000 ![] bcast_S_S800000 (constantI S_ 32 0#32)))
      (addi x1 (broadcastInDim S800000 ![] bcast_S_S800000 (constantI S_ 32 50000#32))) x1)

/-- The destination positions as the scatters take them: laid out as a column. -/
def dstIdx (x2 : IVec S800000 32) : IVec S800000x1 32 :=
  broadcastInDim S800000x1 ![0] bcast_S800000_S800000x1_0 x2

/-- The aggregate of the node features over the edges. -/
def aggFeat (x0 : FVec Ideal S50000x256 .f32) (x1 x2 : IVec S800000 32) : FVec Ideal S50000x256 .f32 :=
  Host.scatterAdd scatter_S50000x256_S800000x1_S800000x256_1_0_0_1
    (broadcastInDim S50000x256 ![] bcast_S_S50000x256 (constant (F := Ideal) S_ .f32 0x00000000#32)) (dstIdx x2)
    (Host.gather gather_S50000x256_S800000x1_S800000x256_1_0_n_n_0_1_1256 x0 (srcIdx x1))

/-- The mean factor: one over the in-degree clamped below by one, as a column. -/
def meanCol (x2 : IVec S800000 32) : FVec Ideal S50000x1 .f32 :=
  broadcastInDim S50000x1 ![0] bcast_S50000_S50000x1_0
    (Host.divf (broadcastInDim S50000 ![] bcast_S_S50000 (constant (F := Ideal) S_ .f32 0x3F800000#32))
      (maximumf
        (Host.scatterAdd scatter_S50000_S800000x1_S800000_n_0_0_1
          (broadcastInDim S50000 ![] bcast_S_S50000 (constant (F := Ideal) S_ .f32 0x00000000#32)) (dstIdx x2)
          (broadcastInDim S800000 ![] bcast_S_S800000 (constant (F := Ideal) S_ .f32 0x3F800000#32)))
        (broadcastInDim S50000 ![] bcast_S_S50000 (constant (F := Ideal) S_ .f32 0x3F800000#32))))

/-- The aggregate of a 128-column array over the edges. -/
def aggProj (t : FVec Ideal S50000x128 .f32) (x1 x2 : IVec S800000 32) : FVec Ideal S50000x128 .f32 :=
  Host.scatterAdd scatter_S50000x128_S800000x1_S800000x128_1_0_0_1
    (broadcastInDim S50000x128 ![] bcast_S_S50000x128 (constant (F := Ideal) S_ .f32 0x00000000#32)) (dstIdx x2)
    (Host.gather gather_S50000x128_S800000x1_S800000x128_1_0_n_n_0_1_1128 t (srcIdx x1))

variable (m : (ℓ : Loc nD τ sig) → Buf (Elt Ideal) ℓ) (ρ : Dev nD → PrngReg) (c : Dev nD)

/-! ## The first kernel's entry -/

set_option maxHeartbeats 4000000 in
theorem V1_v18 : (V1 m ρ c main_v18 : S50000x256.Idx → EReal)
    = aggFeat (m ((c : Thread nD τ).loc main_arg0)) (m ((c : Thread nD τ).loc main_arg1)) (m ((c : Thread nD τ).loc main_arg2)) := by
  show StableHlo.after hostOps0 (W0 m ρ c) (Proc.devRef .tc main_v18) = _
  after_results_simp <;> rfl

theorem V1_v8 : (V1 m ρ c main_v8 : S50000x1.Idx → EReal) = meanCol (m ((c : Thread nD τ).loc main_arg2)) := by
  show StableHlo.after hostOps0 (W0 m ρ c) (Proc.devRef .tc main_v8) = _
  after_results_simp <;> rfl

theorem V1_arg0 : V1 m ρ c main_arg0 = m ((c : Thread nD τ).loc main_arg0) := by
  show StableHlo.after hostOps0 (W0 m ρ c) (Proc.devRef .tc main_arg0) = _
  after_results_simp <;> rfl

theorem V1_arg1 : V1 m ρ c main_arg1 = m ((c : Thread nD τ).loc main_arg1) := by
  show StableHlo.after hostOps0 (W0 m ρ c) (Proc.devRef .tc main_arg1) = _
  after_results_simp <;> rfl

theorem V1_arg2 : V1 m ρ c main_arg2 = m ((c : Thread nD τ).loc main_arg2) := by
  show StableHlo.after hostOps0 (W0 m ρ c) (Proc.devRef .tc main_arg2) = _
  after_results_simp <;> rfl

theorem V1_arg3 : V1 m ρ c main_arg3 = m ((c : Thread nD τ).loc main_arg3) := by
  show StableHlo.after hostOps0 (W0 m ρ c) (Proc.devRef .tc main_arg3) = _
  after_results_simp <;> rfl

theorem V1_arg4 : V1 m ρ c main_arg4 = m ((c : Thread nD τ).loc main_arg4) := by
  show StableHlo.after hostOps0 (W0 m ρ c) (Proc.devRef .tc main_arg4) = _
  after_results_simp <;> rfl

theorem V1_arg5 : V1 m ρ c main_arg5 = m ((c : Thread nD τ).loc main_arg5) := by
  show StableHlo.after hostOps0 (W0 m ρ c) (Proc.devRef .tc main_arg5) = _
  after_results_simp <;> rfl

theorem V1_arg7 : V1 m ρ c main_arg7 = m ((c : Thread nD τ).loc main_arg7) := by
  show StableHlo.after hostOps0 (W0 m ρ c) (Proc.devRef .tc main_arg7) = _
  after_results_simp <;> rfl

/-! ## The second kernel's entry, over the first kernel's exit contents -/

theorem V3_v19_0 : V3 m ρ c main_v19_0 = W2 m ρ c (Proc.devRef .tc main_v19_0) := by
  show StableHlo.after hostOps1 (W2 m ρ c) (Proc.devRef .tc main_v19_0) = _
  after_results_simp <;> rfl

theorem V3_v8 : V3 m ρ c main_v8 = W2 m ρ c (Proc.devRef .tc main_v8) := by
  show StableHlo.after hostOps1 (W2 m ρ c) (Proc.devRef .tc main_v8) = _
  after_results_simp <;> rfl

theorem V3_arg6 : V3 m ρ c main_arg6 = W2 m ρ c (Proc.devRef .tc main_arg6) := by
  show StableHlo.after hostOps1 (W2 m ρ c) (Proc.devRef .tc main_arg6) = _
  after_results_simp <;> rfl

theorem V3_arg8 : V3 m ρ c main_arg8 = W2 m ρ c (Proc.devRef .tc main_arg8) := by
  show StableHlo.after hostOps1 (W2 m ρ c) (Proc.devRef .tc main_arg8) = _
  after_results_simp <;> rfl

theorem V3_v29 : (V3 m ρ c main_v29 : S50000x128.Idx → EReal)
    = aggProj (W2 m ρ c (Proc.devRef .tc main_v19_1)) (W2 m ρ c (Proc.devRef .tc main_arg1)) (W2 m ρ c (Proc.devRef .tc main_arg2)) := by
  show StableHlo.after hostOps1 (W2 m ρ c) (Proc.devRef .tc main_v29) = _
  after_results_simp <;> rfl

/-! ## A buffer the first kernel does not write, or only reads, keeps its entry contents -/

theorem W2_arg1 : W2 m ρ c (Proc.devRef .tc main_arg1) = m ((c : Thread nD τ).loc main_arg1) :=
  (W2_of_ne m ρ c main_arg1 (by decide)).trans (V1_arg1 m ρ c)

theorem W2_arg2 : W2 m ρ c (Proc.devRef .tc main_arg2) = m ((c : Thread nD τ).loc main_arg2) :=
  (W2_of_ne m ρ c main_arg2 (by decide)).trans (V1_arg2 m ρ c)

theorem W2_arg6 : W2 m ρ c (Proc.devRef .tc main_arg6) = m ((c : Thread nD τ).loc main_arg6) :=
  (W2_of_ne m ρ c main_arg6 (by decide)).trans (by
    show StableHlo.after hostOps0 (W0 m ρ c) (Proc.devRef .tc main_arg6) = _
    after_results_simp <;> rfl)

theorem W2_arg8 : W2 m ρ c (Proc.devRef .tc main_arg8) = m ((c : Thread nD τ).loc main_arg8) :=
  (W2_of_ne m ρ c main_arg8 (by decide)).trans (by
    show StableHlo.after hostOps0 (W0 m ρ c) (Proc.devRef .tc main_arg8) = _
    after_results_simp <;> rfl)

theorem W2_v8 : (W2 m ρ c (Proc.devRef .tc main_v8) : S50000x1.Idx → EReal) = meanCol (m ((c : Thread nD τ).loc main_arg2)) :=
  (W2_arr m ρ c 2).trans ((((dat0 (V1 m ρ) c).arrAt_in 2 rfl _).trans (A_eq0 (V1 m ρ) c 2)).trans (V1_v8 m ρ c))

end Cert.KernelIdeal.HostValue

end
-- ==== Proof.Spec.lean ====
/-
  A two-layer graph convolution with mean aggregation, as functions of arrays of extended reals.

  A node r has a feature row X[r, ·]; S[r, ·] is the sum of the feature rows of the nodes that send an edge to r, and
  D[r, 0] the factor that turns that sum into a mean.  The hidden layer is
      H[r, k] = max (Σ_l X[r, l]·Ws[l, k] + Σ_l (S[r, l]·D[r, 0])·Wn[l, k] + b[k]) 0,
  a projection of it by a weight matrix is  T[r, g] = Σ_k H[r, k]·W[k, g],  and the output layer is
      O[r, g] = Σ_k H[r, k]·W2s[k, g] + St[r, g]·D[r, 0] + b2[g],
  where St is the aggregated projection.  Each is stated at explicit coordinates and as a whole array.
-/
import Idealize.ShloMosaic.Lib.ValueIdx
import Idealize.ShloMosaic.PureOps.Ideal

noncomputable section

open scoped BigOperators

namespace Cert.Sage

open Idealize.ShloMosaic Idealize.ShloMosaic.ValueIdx

abbrev SNx256 : Shape := ⟨2, ![50000, 256]⟩
abbrev SNx128 : Shape := ⟨2, ![50000, 128]⟩
abbrev SNx1 : Shape := ⟨2, ![50000, 1]⟩
abbrev SW256 : Shape := ⟨2, ![256, 256]⟩
abbrev SW128 : Shape := ⟨2, ![256, 128]⟩
abbrev SB256 : Shape := ⟨1, ![256]⟩
abbrev SB128 : Shape := ⟨1, ![128]⟩

/-- A function of two coordinates as an array of rank 2. -/
def arr2 {α : Type} {n0 n1 : Nat} (f : Fin n0 → Fin n1 → α) : (⟨2, ![n0, n1]⟩ : Shape).Idx → α :=
  fun i => f (i 0) (i 1)

theorem arr2_ix2 {α : Type} {n0 n1 : Nat} (f : Fin n0 → Fin n1 → α) (a : Fin n0) (b : Fin n1) :
    arr2 f (ix2 a b) = f a b := rfl

/-- The hidden layer at node r, unit k. -/
def hiddenAt (X S : SNx256.Idx → EReal) (D : SNx1.Idx → EReal) (Ws Wn : SW256.Idx → EReal) (b : SB256.Idx → EReal)
    (r : Fin 50000) (k : Fin 256) : EReal :=
  max ((∑ l : Fin 256, X (ix2 r l) * Ws (ix2 l k)) + (∑ l : Fin 256, (S (ix2 r l) * D (ix2 r (0 : Fin 1))) * Wn (ix2 l k))
    + b (ix1 k)) 0

/-- The hidden layer as an array. -/
def hidden (X S : SNx256.Idx → EReal) (D : SNx1.Idx → EReal) (Ws Wn : SW256.Idx → EReal) (b : SB256.Idx → EReal) :
    SNx256.Idx → EReal :=
  arr2 (hiddenAt X S D Ws Wn b)

/-- A projection of the hidden layer by a weight matrix, at node r, column g. -/
def projAt (H : SNx256.Idx → EReal) (W : SW128.Idx → EReal) (r : Fin 50000) (g : Fin 128) : EReal :=
  ∑ k : Fin 256, H (ix2 r k) * W (ix2 k g)

/-- The projection as an array. -/
def proj (H : SNx256.Idx → EReal) (W : SW128.Idx → EReal) : SNx128.Idx → EReal :=
  arr2 (projAt H W)

/-- The output layer at node r, column g, from the hidden layer, the aggregated projection and the mean factor. -/
def outAt (H : SNx256.Idx → EReal) (St : SNx128.Idx → EReal) (D : SNx1.Idx → EReal) (W2s : SW128.Idx → EReal)
    (b2 : SB128.Idx → EReal) (r : Fin 50000) (g : Fin 128) : EReal :=
  (∑ k : Fin 256, H (ix2 r k) * W2s (ix2 k g)) + St (ix2 r g) * D (ix2 r (0 : Fin 1)) + b2 (ix1 g)

/-- The output layer as an array. -/
def out (H : SNx256.Idx → EReal) (St : SNx128.Idx → EReal) (D : SNx1.Idx → EReal) (W2s : SW128.Idx → EReal)
    (b2 : SB128.Idx → EReal) : SNx128.Idx → EReal :=
  arr2 (outAt H St D W2s b2)

end Cert.Sage

end
-- ==== Proof.LibSegPool.lean ====
/-
  The host's float scatter-add that sums the rows of an [N, C] array into the rows of an [S, C] array named by an
  [N, 1] array of row numbers (a segment sum), read at an index at the ideal instance, and the fact that four such
  sums laid side by side are the sum of the four arrays laid side by side.
-/
import Idealize.ShloMosaic.Lib.ValueIdx
import Idealize.ShloMosaic.PureOps.Ideal
import Idealize.ShloMosaic.Lib.Pipeline.Value

noncomputable section

open scoped BigOperators

namespace Cert.LibSegPool

open Idealize.ShloMosaic Idealize.ShloMosaic.ValueIdx

/-- The dimension numbers of a segment sum: operand `[S, C]`, scatter indices `[N, 1]`, updates `[N, C]`; the
    updates' axis 1 is the window axis, the operand's axis 0 is inserted and is the one the index names, the index
    vector lies on axis 1 of the scatter indices. Their conditions `wf` are decided on literal shapes. -/
abbrev poolDims (S N C : ℕ) (wf : ScatterDims.WF ⟨2, ![S, C]⟩ ⟨2, ![N, 1]⟩ ⟨2, ![N, C]⟩ [1] [0] [0] 1) :
    ScatterDims ⟨2, ![S, C]⟩ ⟨2, ![N, 1]⟩ ⟨2, ![N, C]⟩ where
  updateWindowDims := [1]
  insertedWindowDims := [0]
  scatterDimsToOperandDims := [0]
  indexVectorDim := 1
  wf := wf

section
variable {S N C w : ℕ} (wf : ScatterDims.WF ⟨2, ![S, C]⟩ ⟨2, ![N, 1]⟩ ⟨2, ![N, C]⟩ [1] [0] [0] 1)

/-- On the operand's row axis an update's window starts at its row number `idx[n, 0]`, read as a signed integer. -/
theorem start0 (idx : IVec ⟨2, ![N, 1]⟩ w) (n : Fin N) (g : Fin C) :
    (poolDims S N C wf).start (ix2 n g) idx 0 = (idx (ix2 n (0 : Fin 1))).toInt := by
  unfold ScatterDims.start
  rw [dif_pos (show (0 : Fin 2) ∈ (poolDims S N C wf).scatterDimsToOperandDims from List.mem_singleton.mpr rfl)]
  congr 2
  funext b
  refine Fin.ext ?_
  match b with
  | ⟨0, _⟩ => rfl
  | ⟨1, _⟩ => rfl

/-- On the operand's column axis the window starts at `0`: the index names the row axis only. -/
theorem start1 (idx : IVec ⟨2, ![N, 1]⟩ w) (n : Fin N) (g : Fin C) :
    (poolDims S N C wf).start (ix2 n g) idx 1 = 0 := by
  unfold ScatterDims.start
  rw [dif_neg (show ¬ (1 : Fin 2) ∈ (poolDims S N C wf).scatterDimsToOperandDims from
    (show (1 : Fin 2) ∉ [(0 : Fin 2)] by decide))]

/-- The row axis is inserted: the window coordinate there is `0`. -/
theorem window0 (n : Fin N) (g : Fin C) : (poolDims S N C wf).window (ix2 n g) 0 = 0 := by
  unfold ScatterDims.window
  rw [dif_neg (show ¬ (0 : Fin 2) ∈ (poolDims S N C wf).sKept from
    (show (0 : Fin 2) ∉ (List.finRange 2).filter (fun a => a ∉ [(0 : Fin 2)]) by decide))]

/-- On the column axis the window coordinate is the update's column. -/
theorem window1 (n : Fin N) (g : Fin C) : (poolDims S N C wf).window (ix2 n g) 1 = g.val := by
  unfold ScatterDims.window
  rw [dif_pos (show (1 : Fin 2) ∈ (poolDims S N C wf).sKept from
    (show (1 : Fin 2) ∈ (List.finRange 2).filter (fun a => a ∉ [(0 : Fin 2)]) by decide))]
  rfl

/-- WHERE AN UPDATE LANDS: update element `(n, g)` lands on operand element `(s, f)` exactly when the row number
    `idx[n, 0]`, read as a signed integer and not clamped, is `s`, and the column is the same, `g = f`. A row number
    outside `[0, S)` lands nowhere: the update is dropped. -/
theorem resultIdx_pool (idx : IVec ⟨2, ![N, 1]⟩ w) (n : Fin N) (g : Fin C) (s : Fin S) (f : Fin C) :
    (poolDims S N C wf).resultIdx? (ix2 n g) idx = some (ix2 s f) ↔
      ((idx (ix2 n (0 : Fin 1))).toInt = (s.val : ℤ) ∧ g = f) := by
  have e0 : (poolDims S N C wf).start (ix2 n g) idx 0 + ((poolDims S N C wf).window (ix2 n g) 0 : ℕ)
      = (idx (ix2 n (0 : Fin 1))).toInt := by
    rw [start0, window0]; simp
  have e1 : (poolDims S N C wf).start (ix2 n g) idx 1 + ((poolDims S N C wf).window (ix2 n g) 1 : ℕ) = (g.val : ℤ) := by
    rw [start1, window1]; simp
  unfold ScatterDims.resultIdx?
  constructor
  · intro h
    split at h
    · next hall =>
      have h' := Option.some.inj h
      have h0 : ((poolDims S N C wf).start (ix2 n g) idx 0 + ((poolDims S N C wf).window (ix2 n g) 0 : ℕ)).toNat = s.val :=
        congrArg (fun i => (i 0).val) h'
      have h1 : ((poolDims S N C wf).start (ix2 n g) idx 1 + ((poolDims S N C wf).window (ix2 n g) 1 : ℕ)).toNat = f.val :=
        congrArg (fun i => (i 1).val) h'
      have p0 := (hall 0).1
      rw [e0] at h0 p0
      rw [e1] at h1
      refine ⟨by omega, Fin.ext (by omega)⟩
    · exact absurd h (by simp)
  · rintro ⟨hs, rfl⟩
    have hall : ∀ a : Fin 2, 0 ≤ (poolDims S N C wf).start (ix2 n g) idx a + ((poolDims S N C wf).window (ix2 n g) a : ℕ) ∧
        (poolDims S N C wf).start (ix2 n g) idx a + ((poolDims S N C wf).window (ix2 n g) a : ℕ)
          < ((⟨2, ![S, C]⟩ : Shape).size a : ℕ) := by
      intro a
      match a with
      | ⟨0, _⟩ =>
        have := s.isLt
        show 0 ≤ (poolDims S N C wf).start (ix2 n g) idx 0 + ((poolDims S N C wf).window (ix2 n g) 0 : ℕ) ∧
          (poolDims S N C wf).start (ix2 n g) idx 0 + ((poolDims S N C wf).window (ix2 n g) 0 : ℕ) < (S : ℤ)
        rw [e0, hs]; omega
      | ⟨1, _⟩ =>
        have := g.isLt
        show 0 ≤ (poolDims S N C wf).start (ix2 n g) idx 1 + ((poolDims S N C wf).window (ix2 n g) 1 : ℕ) ∧
          (poolDims S N C wf).start (ix2 n g) idx 1 + ((poolDims S N C wf).window (ix2 n g) 1 : ℕ) < (C : ℤ)
        rw [e1]; omega
    rw [dif_pos hall]
    congr 1
    funext a
    refine Fin.ext ?_
    match a with
    | ⟨0, _⟩ =>
      show ((poolDims S N C wf).start (ix2 n g) idx 0 + ((poolDims S N C wf).window (ix2 n g) 0 : ℕ)).toNat = s.val
      rw [e0, hs]; omega
    | ⟨1, _⟩ =>
      show ((poolDims S N C wf).start (ix2 n g) idx 1 + ((poolDims S N C wf).window (ix2 n g) 1 : ℕ)).toNat = g.val
      rw [e1]; omega

/-- THE SEGMENT SUM READ AT `(s, f)`: the operand there plus the sum, over the update rows `n` whose row number
    `idx[n, 0]` (signed, not clamped) is `s`, of the update's element in column `f`. -/
theorem scatterAdd_pool_apply (x : (⟨2, ![S, C]⟩ : Shape).Idx → EReal) (idx : IVec ⟨2, ![N, 1]⟩ w)
    (upd : (⟨2, ![N, C]⟩ : Shape).Idx → EReal) (s : Fin S) (f : Fin C) :
    Ideal.hostScatterAdd (poolDims S N C wf) x idx upd (ix2 s f)
      = x (ix2 s f) + ∑ n : Fin N, (if (idx (ix2 n (0 : Fin 1))).toInt = (s.val : ℤ) then upd (ix2 n f) else 0) := by
  unfold Ideal.hostScatterAdd
  congr 1
  rw [Finset.sum_filter, sum_idx2]
  refine Finset.sum_congr rfl (fun n _ => ?_)
  simp only [resultIdx_pool]
  by_cases h : (idx (ix2 n (0 : Fin 1))).toInt = (s.val : ℤ)
  · simp [h]
  · simp [h]

end

/-- FOUR `[R, C]` PIECES LAID SIDE BY SIDE, READ AT `(r, g)`: piece `g / C` at `(r, g % C)`. -/
theorem concat4_apply {α : Type} {R C C4 : ℕ}
    (hc : Shape.Concatenates [⟨2, ![R, C]⟩, ⟨2, ![R, C]⟩, ⟨2, ![R, C]⟩, ⟨2, ![R, C]⟩] ⟨2, ![R, C4]⟩ 1)
    (G : Fin 4 → (⟨2, ![R, C]⟩ : Shape).Idx → α) (r : Fin R) (g : Fin C4) (k : Fin 4) (f : Fin C)
    (hk : g.val / C = k.val) (hf : g.val % C = f.val) :
    concatenate ⟨2, ![R, C4]⟩ 1 [⟨⟨2, ![R, C]⟩, G 0⟩, ⟨⟨2, ![R, C]⟩, G 1⟩, ⟨⟨2, ![R, C]⟩, G 2⟩, ⟨⟨2, ![R, C]⟩, G 3⟩] hc (ix2 r g)
      = G k (ix2 r f) := by
  refine concatenate_ofFn_apply (t := ⟨2, ![R, C4]⟩) (s₁ := ⟨2, ![R, C]⟩) (1 : Fin 2) G hc rfl C rfl (ix2 r g) k hk (ix2 r f) hf.symm ?_
  intro b hb
  match b with
  | ⟨0, _⟩ => rfl
  | ⟨1, _⟩ => exact absurd rfl hb

/-- SEGMENT SUMS OF FOUR ARRAYS, SIDE BY SIDE: summing each of four `[N, C]` arrays into `[S, C]` by the same row
    numbers (each sum started from an array `zK`) and laying the four results side by side is summing the four arrays
    laid side by side into `[S, 4C]` (started from `zR`), when the two starting arrays hold one common value. Element
    `(s, g)` of either side is that value plus the sum, over the rows `n` whose number is `s`, of array `g / C` at
    `(n, g % C)`. -/
theorem pool_concat4 {S N C C4 w : ℕ} (hC4 : C4 = 4 * C)
    (wfK : ScatterDims.WF ⟨2, ![S, C]⟩ ⟨2, ![N, 1]⟩ ⟨2, ![N, C]⟩ [1] [0] [0] 1)
    (wfR : ScatterDims.WF ⟨2, ![S, C4]⟩ ⟨2, ![N, 1]⟩ ⟨2, ![N, C4]⟩ [1] [0] [0] 1)
    (hcK : Shape.Concatenates [⟨2, ![S, C]⟩, ⟨2, ![S, C]⟩, ⟨2, ![S, C]⟩, ⟨2, ![S, C]⟩] ⟨2, ![S, C4]⟩ 1)
    (hcR : Shape.Concatenates [⟨2, ![N, C]⟩, ⟨2, ![N, C]⟩, ⟨2, ![N, C]⟩, ⟨2, ![N, C]⟩] ⟨2, ![N, C4]⟩ 1)
    (zK : (⟨2, ![S, C]⟩ : Shape).Idx → EReal) (zR : (⟨2, ![S, C4]⟩ : Shape).Idx → EReal)
    (hz : ∀ i j, zR i = zK j)
    (idx : IVec ⟨2, ![N, 1]⟩ w) (h0 h1 h2 h3 : (⟨2, ![N, C]⟩ : Shape).Idx → EReal) :
    concatenate ⟨2, ![S, C4]⟩ 1
        [⟨⟨2, ![S, C]⟩, Ideal.hostScatterAdd (poolDims S N C wfK) zK idx h0⟩,
         ⟨⟨2, ![S, C]⟩, Ideal.hostScatterAdd (poolDims S N C wfK) zK idx h1⟩,
         ⟨⟨2, ![S, C]⟩, Ideal.hostScatterAdd (poolDims S N C wfK) zK idx h2⟩,
         ⟨⟨2, ![S, C]⟩, Ideal.hostScatterAdd (poolDims S N C wfK) zK idx h3⟩] hcK
      = Ideal.hostScatterAdd (poolDims S N C4 wfR) zR idx
          (concatenate ⟨2, ![N, C4]⟩ 1
            [⟨⟨2, ![N, C]⟩, h0⟩, ⟨⟨2, ![N, C]⟩, h1⟩, ⟨⟨2, ![N, C]⟩, h2⟩, ⟨⟨2, ![N, C]⟩, h3⟩] hcR) := by
  funext j
  obtain ⟨s, g, rfl⟩ : ∃ s g, j = ix2 s g := ⟨j 0, j 1, eq_ix2 j⟩
  -- the piece `k = g / C` and the column `f = g % C` inside it
  have hg : g.val < 4 * C := hC4 ▸ g.isLt
  have hC : 0 < C := by omega
  let k : Fin 4 := ⟨g.val / C, (Nat.div_lt_iff_lt_mul hC).mpr hg⟩
  let f : Fin C := ⟨g.val % C, Nat.mod_lt _ hC⟩
  let H : Fin 4 → (⟨2, ![N, C]⟩ : Shape).Idx → EReal := fun q =>
    match q with | ⟨0, _⟩ => h0 | ⟨1, _⟩ => h1 | ⟨2, _⟩ => h2 | ⟨3, _⟩ => h3
  have hL := concat4_apply hcK (fun q => Ideal.hostScatterAdd (poolDims S N C wfK) zK idx (H q)) s g k f rfl rfl
  have hR : ∀ n : Fin N, concatenate ⟨2, ![N, C4]⟩ 1
      [⟨⟨2, ![N, C]⟩, h0⟩, ⟨⟨2, ![N, C]⟩, h1⟩, ⟨⟨2, ![N, C]⟩, h2⟩, ⟨⟨2, ![N, C]⟩, h3⟩] hcR (ix2 n g) = H k (ix2 n f) :=
    fun n => concat4_apply hcR H n g k f rfl rfl
  refine hL.trans ?_
  rw [scatterAdd_pool_apply, scatterAdd_pool_apply, hz (ix2 s g) (ix2 s f)]
  congr 1
  refine Finset.sum_congr rfl (fun n _ => ?_)
  rw [hR n]

end Cert.LibSegPool

end
-- ==== Proof.LibGatherRows.lean ====
/-
  A gather of whole rows of a matrix, read at an index.

  `x[idx, :]` for a matrix `x : [N, C]` and an integer vector `idx` of `R` row numbers lowers to a gather whose
  start indices are `idx` viewed as `[R, 1]`, with the row axis collapsed, the column axis an offset axis of full
  width, and the index vector on the last axis.  Entry (o, h) of the result is `x` at row `idx[o, 0]` — read as a
  signed integer and clamped into [0, N − 1], as every gather start index is — and column `h`.
-/
import Idealize.ShloMosaic.Lib.ValueIdx

namespace Cert.LibGatherRows

open Idealize.ShloMosaic Idealize.ShloMosaic.ValueIdx

variable {α : Type}

/-- The dimension numbers of a whole-row gather for an operand `[N, C]`, start indices `[R, 1]` and a result `[R, C]`;
    their conditions `wf` are decided on a program's literal shapes. -/
abbrev rowsDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(o, h)`: the operand at row `idx[o, 0]` (signed, clamped into `[0, N − 1]`), column `h`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (o : Fin R) (h : Fin C) :
    Host.gather (rowsDims N C R wf) x idx (ix2 o h)
      = x (ix2 ⟨min (idx (ix2 o (0 : Fin 1))).toInt.toNat (N - 1), by omega⟩ h) := by
  unfold Host.gather
  refine congrArg x (funext fun a => Fin.ext ?_)
  match a with
  | ⟨0, _⟩ =>
    show (rowsDims N C R wf).start (ix2 o h) idx 0 + (rowsDims N C R wf).batchCoord (ix2 o h) 0
        + (rowsDims N C R wf).offCoord (ix2 o h) 0 = _
    rw [GatherDims.batchCoord_eq_zero _ _ _ List.not_mem_nil,
      GatherDims.offCoord_eq_zero _ _ _ (fun hk => ((GatherDims.mem_sKept _ _).mp hk).1 (List.mem_singleton.mpr rfl))]
    simp only [Nat.add_zero]
    unfold GatherDims.start
    rw [dif_pos (show (0 : Fin 2) ∈ (rowsDims N C R wf).startIndexMap from List.mem_singleton.mpr rfl)]
    have hsi : (rowsDims N C R wf).siIdx (ix2 o h) ⟨List.idxOf (0 : Fin 2) (rowsDims N C R wf).startIndexMap,
        List.idxOf_lt_length_iff.2 (List.mem_singleton.mpr rfl)⟩ = ix2 o (0 : Fin 1) := by
      funext b; refine Fin.ext ?_
      match b with
      | ⟨0, _⟩ => rfl
      | ⟨1, _⟩ => rfl
    rw [hsi]
    rfl
  | ⟨1, _⟩ =>
    show (rowsDims N C R wf).start (ix2 o h) idx 1 + (rowsDims N C R wf).batchCoord (ix2 o h) 1
        + (rowsDims N C R wf).offCoord (ix2 o h) 1 = h.val
    rw [GatherDims.batchCoord_eq_zero _ _ _ List.not_mem_nil]
    have hs : (rowsDims N C R wf).start (ix2 o h) idx 1 = 0 := by
      unfold GatherDims.start
      rw [dif_neg (show ¬ (1 : Fin 2) ∈ ([0] : List (Fin 2)) from by decide)]
    rw [hs]
    have ho : (rowsDims N C R wf).offCoord (ix2 o h) 1 = h.val := by
      unfold GatherDims.offCoord
      rw [dif_pos ((GatherDims.mem_sKept (rowsDims N C R wf) 1).mpr
        ⟨show ¬ (1 : Fin 2) ∈ ([0] : List (Fin 2)) from by decide, List.not_mem_nil⟩)]
      rfl
    rw [ho]
    omega

end Cert.LibGatherRows
-- ==== Proof.LibGraphOps.lean ====
/-
  Host operations of a graph computation read at an index: the float scatter-add of a VECTOR of updates into a vector
  named by an [N, 1] array of positions (a count or a segment sum of scalars), the gather of single elements of a vector
  at an [R, 1] array of positions, a vector laid out as an [n, 1] column, the wrap of a negative position, and the
  signed value of a counter word.
-/
import Idealize.ShloMosaic.Lib.ValueIdx
import Idealize.ShloMosaic.PureOps.Ideal
import Idealize.ShloMosaic.Lib.Pipeline.Value

noncomputable section

open scoped BigOperators

namespace Cert.LibGraphOps

open Idealize.ShloMosaic Idealize.ShloMosaic.ValueIdx

/-- The dimension numbers of a scalar segment sum: operand `[S]`, scatter indices `[N, 1]`, updates `[N]`; no window
    axis, the operand's one axis is inserted and is the one the index names, the index vector lies on axis 1. -/
abbrev vecScatterDims (S N : ℕ) (wf : ScatterDims.WF ⟨1, ![S]⟩ ⟨2, ![N, 1]⟩ ⟨1, ![N]⟩ [] [0] [0] 1) :
    ScatterDims ⟨1, ![S]⟩ ⟨2, ![N, 1]⟩ ⟨1, ![N]⟩ where
  updateWindowDims := []
  insertedWindowDims := [0]
  scatterDimsToOperandDims := [0]
  indexVectorDim := 1
  wf := wf

section
variable {S N w : ℕ} (wf : ScatterDims.WF ⟨1, ![S]⟩ ⟨2, ![N, 1]⟩ ⟨1, ![N]⟩ [] [0] [0] 1)

/-- A rank-1 index set is its coordinate range … -/
def idxEquiv1 {n : ℕ} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : ℕ} (f : (⟨1, ![n]⟩ : Shape).Idx → M) :
    ∑ i, f i = ∑ a : Fin n, f (ix1 a) := by
  rw [← Equiv.sum_comp (idxEquiv1 (n := n)).symm f]
  rfl

/-- On the operand's one axis an update's window starts at its position `idx[n, 0]`, read as a signed integer. -/
theorem vstart0 (idx : IVec ⟨2, ![N, 1]⟩ w) (n : Fin N) :
    (vecScatterDims S N wf).start (ix1 n) idx 0 = (idx (ix2 n (0 : Fin 1))).toInt := by
  unfold ScatterDims.start
  rw [dif_pos (show (0 : Fin 1) ∈ (vecScatterDims S N wf).scatterDimsToOperandDims from List.mem_singleton.mpr rfl)]
  congr 2
  funext b
  refine Fin.ext ?_
  match b with
  | ⟨0, _⟩ => rfl
  | ⟨1, _⟩ => rfl

/-- The operand's one axis is inserted: the window coordinate there is `0`. -/
theorem vwindow0 (n : Fin N) : (vecScatterDims S N wf).window (ix1 n) 0 = 0 := by
  unfold ScatterDims.window
  rw [dif_neg (show ¬ (0 : Fin 1) ∈ (vecScatterDims S N wf).sKept from
    (show (0 : Fin 1) ∉ (List.finRange 1).filter (fun a => a ∉ [(0 : Fin 1)]) by decide))]

/-- WHERE AN UPDATE LANDS: update `n` lands on operand element `s` exactly when the position `idx[n, 0]`, read as a
    signed integer and not clamped, is `s`. A position outside `[0, S)` lands nowhere: the update is dropped. -/
theorem resultIdx_vec (idx : IVec ⟨2, ![N, 1]⟩ w) (n : Fin N) (s : Fin S) :
    (vecScatterDims S N wf).resultIdx? (ix1 n) idx = some (ix1 s) ↔
      (idx (ix2 n (0 : Fin 1))).toInt = (s.val : ℤ) := by
  have e0 : (vecScatterDims S N wf).start (ix1 n) idx 0 + ((vecScatterDims S N wf).window (ix1 n) 0 : ℕ)
      = (idx (ix2 n (0 : Fin 1))).toInt := by
    rw [vstart0, vwindow0]; simp
  unfold ScatterDims.resultIdx?
  constructor
  · intro h
    split at h
    · next hall =>
      have h' := Option.some.inj h
      have h0 : ((vecScatterDims S N wf).start (ix1 n) idx 0 + ((vecScatterDims S N wf).window (ix1 n) 0 : ℕ)).toNat = s.val :=
        congrArg (fun i => (i 0).val) h'
      have p0 := (hall 0).1
      rw [e0] at h0 p0
      omega
    · exact absurd h (by simp)
  · intro hs
    have hall : ∀ a : Fin 1, 0 ≤ (vecScatterDims S N wf).start (ix1 n) idx a + ((vecScatterDims S N wf).window (ix1 n) a : ℕ) ∧
        (vecScatterDims S N wf).start (ix1 n) idx a + ((vecScatterDims S N wf).window (ix1 n) a : ℕ)
          < ((⟨1, ![S]⟩ : Shape).size a : ℕ) := by
      intro a
      match a with
      | ⟨0, _⟩ =>
        have := s.isLt
        show 0 ≤ (vecScatterDims S N wf).start (ix1 n) idx 0 + ((vecScatterDims S N wf).window (ix1 n) 0 : ℕ) ∧
          (vecScatterDims S N wf).start (ix1 n) idx 0 + ((vecScatterDims S N wf).window (ix1 n) 0 : ℕ) < (S : ℤ)
        rw [e0, hs]; omega
    rw [dif_pos hall]
    congr 1
    funext a
    refine Fin.ext ?_
    match a with
    | ⟨0, _⟩ =>
      show ((vecScatterDims S N wf).start (ix1 n) idx 0 + ((vecScatterDims S N wf).window (ix1 n) 0 : ℕ)).toNat = s.val
      rw [e0, hs]; omega

end

/-- THE SCALAR SEGMENT SUM READ AT `s`: the operand there plus the sum, over the updates `n` whose position
    `idx[n, 0]` (signed, not clamped) is `s`, of the update. -/
theorem scatterAdd_vec_apply {S N w : ℕ} (wf : ScatterDims.WF ⟨1, ![S]⟩ ⟨2, ![N, 1]⟩ ⟨1, ![N]⟩ [] [0] [0] 1)
    (x : (⟨1, ![S]⟩ : Shape).Idx → EReal) (idx : IVec ⟨2, ![N, 1]⟩ w)
    (upd : (⟨1, ![N]⟩ : Shape).Idx → EReal) (s : Fin S) :
    Ideal.hostScatterAdd (vecScatterDims S N wf) x idx upd (ix1 s)
      = x (ix1 s) + ∑ n : Fin N, (if (idx (ix2 n (0 : Fin 1))).toInt = (s.val : ℤ) then upd (ix1 n) else 0) := by
  unfold Ideal.hostScatterAdd
  congr 1
  rw [Finset.sum_filter, sum_idx1]
  refine Finset.sum_congr rfl (fun n _ => ?_)
  simp only [resultIdx_vec]

/-- The dimension numbers of an element gather: operand `[N]`, start indices `[R, 1]`, result `[R]`. -/
abbrev vecGatherDims (N R : ℕ) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- THE ELEMENT GATHER READ AT `o`: the operand at position `idx[o, 0]` (signed, clamped into `[0, N − 1]`). -/
theorem gather_vec_apply {α : Type} {N R w : ℕ} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (o : Fin R) :
    Host.gather (vecGatherDims N R wf) x idx (ix1 o)
      = x (ix1 ⟨min (idx (ix2 o (0 : Fin 1))).toInt.toNat (N - 1), by omega⟩) := by
  unfold Host.gather
  congr 1
  funext a
  obtain rfl : a = 0 := Subsingleton.elim _ _
  refine Fin.ext ?_
  show (vecGatherDims N R wf).start (ix1 o) idx 0 + (vecGatherDims N R wf).batchCoord (ix1 o) 0
      + (vecGatherDims N R wf).offCoord (ix1 o) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGatherDims N R wf).startIndexMap from List.mem_singleton.mpr rfl)]
  have hsi : (vecGatherDims N R wf).siIdx (ix1 o) ⟨List.idxOf (0 : Fin 1) (vecGatherDims N R wf).startIndexMap,
      List.idxOf_lt_length_iff.2 (List.mem_singleton.mpr rfl)⟩ = ix2 o (0 : Fin 1) := by
    funext b; refine Fin.ext ?_
    match b with
    | ⟨0, _⟩ => rfl
    | ⟨1, _⟩ => rfl
  rw [hsi]
  rfl

/-- A vector laid out as an `[n, 1]` column, read at `(j, 0)`. -/
theorem bcast_col_apply {α : Type} {n : ℕ}
    (h : (⟨1, ![n]⟩ : Shape).BroadcastsInDim ⟨2, ![n, 1]⟩ (![0] : Fin 1 → Fin 2))
    (v : (⟨1, ![n]⟩ : Shape).Idx → α) (j : Fin n) (z : Fin 1) :
    broadcastInDim (⟨2, ![n, 1]⟩ : Shape) (![0] : Fin 1 → Fin 2) h v (ix2 j z) = v (ix1 j) := by
  refine broadcastInDim_apply _ h v (ix2 j z) (ix1 j) (fun a => ?_)
  match a with
  | ⟨0, _⟩ =>
    show j.val = if n = 1 then 0 else j.val
    by_cases hn : n = 1
    · rw [if_pos hn]; have := j.isLt; omega
    · rw [if_neg hn]

/-- THE WRAP OF A NEGATIVE POSITION (`select(v < 0, v + k, v)`, signed) leaves a non-negative word alone. -/
theorem wrap_nonneg (v k : BitVec 32) (h : 0 ≤ v.toInt) :
    Scalar.select (IntOp.cmpi .slt v 0#32) (IntOp.addi v k) v = v := by
  have hs : v.slt 0#32 = false := by
    rw [Bool.eq_false_iff]
    intro hlt
    rw [BitVec.slt_iff_toInt_lt] at hlt
    simp at hlt
    omega
  unfold Scalar.select IntOp.cmpi
  simp only [hs]
  rw [if_neg (by decide)]

/-- The counter word at position `l` below 2^31 is `l` as a signed integer. -/
theorem ofNat_toInt (l : ℕ) (h : l < 2147483648) : (BitVec.ofNat 32 l).toInt = (l : ℤ) := by
  unfold BitVec.toInt
  rw [BitVec.toNat_ofNat, Nat.mod_eq_of_lt (show l < 2 ^ 32 by omega)]
  rw [if_pos (by omega)]

end Cert.LibGraphOps

end
-- ==== Proof.LibEdgeAgg.lean ====
/-
  Mean aggregation over a graph's edges, read at an index.

  Edge n carries a source position and a destination position.  Gathering the source rows of a matrix Y and
  scatter-adding them at the destinations gives, at node s and column f,
      0 + Σ_n [edge n ends at s] · Y[row n, f],
  where  row n  is the source position read as a signed integer and clamped into the matrix, and an edge "ends at s"
  when its destination position, read as a signed integer, is s (a position outside the matrix lands nowhere).
  Scatter-adding ones the same way counts the edges that end at s.  The edge set and the row map do not depend on
  the number of columns, which is what lets a 256-column and a 128-column aggregation be compared.
-/
import proofs.«180790_j71236327571567_2_alg».proof.Proof.LibSegPool
import proofs.«180790_j71236327571567_2_alg».proof.Proof.LibGatherRows
import proofs.«180790_j71236327571567_2_alg».proof.Proof.LibGraphOps

noncomputable section

open scoped BigOperators

namespace Cert.LibEdgeAgg

open Idealize.ShloMosaic Idealize.ShloMosaic.ValueIdx

variable {N E C : ℕ}

/-- The source row of edge n: its start index, signed, clamped into [0, N − 1]. -/
def rowOf (hN : 0 < N) (srcI : IVec ⟨2, ![E, 1]⟩ 32) (n : Fin E) : Fin N :=
  ⟨min (srcI (ix2 n (0 : Fin 1))).toInt.toNat (N - 1), by omega⟩

/-- The aggregated sum at node s, column f. -/
def aggAt (hN : 0 < N) (srcI dstI : IVec ⟨2, ![E, 1]⟩ 32) (Y : (⟨2, ![N, C]⟩ : Shape).Idx → EReal) (s : Fin N) (f : Fin C) : EReal :=
  0 + ∑ n : Fin E, if (dstI (ix2 n (0 : Fin 1))).toInt = (s.val : ℤ) then Y (ix2 (rowOf hN srcI n) f) else 0

/-- The in-degree of node s: the number of edges that end at it. -/
def degAt (dstI : IVec ⟨2, ![E, 1]⟩ 32) (s : Fin N) : EReal :=
  0 + ∑ n : Fin E, if (dstI (ix2 n (0 : Fin 1))).toInt = (s.val : ℤ) then (1 : EReal) else 0

/-- Gather the source rows, scatter-add them at the destinations into zeros: the aggregated sum. -/
theorem agg_apply (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (srcI dstI : IVec ⟨2, ![E, 1]⟩ 32) (z : (⟨2, ![N, C]⟩ : Shape).Idx → EReal) (hz : ∀ i, z i = 0)
    (Y : (⟨2, ![N, C]⟩ : Shape).Idx → EReal) (s : Fin N) (f : Fin C) :
    Ideal.hostScatterAdd (Cert.LibSegPool.poolDims N E C wfS) z dstI
        (Host.gather (Cert.LibGatherRows.rowsDims N C E wfG) Y srcI) (ix2 s f)
      = aggAt hN srcI dstI Y s f := by
  rw [Cert.LibSegPool.scatterAdd_pool_apply, hz]
  unfold aggAt
  congr 1
  refine Finset.sum_congr rfl fun n _ => ?_
  rw [Cert.LibGatherRows.gather_rows_apply hN]
  rfl

/-- Scatter-add ones at the destinations into zeros: the in-degree. -/
theorem deg_apply (wfV : ScatterDims.WF ⟨1, ![N]⟩ ⟨2, ![E, 1]⟩ ⟨1, ![E]⟩ [] [0] [0] 1)
    (dstI : IVec ⟨2, ![E, 1]⟩ 32) (z : (⟨1, ![N]⟩ : Shape).Idx → EReal) (hz : ∀ i, z i = 0)
    (u : (⟨1, ![E]⟩ : Shape).Idx → EReal) (hu : ∀ i, u i = 1) (s : Fin N) :
    Ideal.hostScatterAdd (Cert.LibGraphOps.vecScatterDims N E wfV) z dstI u (ix1 s) = degAt dstI s := by
  rw [Cert.LibGraphOps.scatterAdd_vec_apply, hz]
  unfold degAt
  congr 1
  refine Finset.sum_congr rfl fun n _ => ?_
  rw [hu]

/-- The host's quotient read at an index. -/
theorem hostDivf_apply {s : Shape} (a b : FVec Ideal s .f32) (i : s.Idx) : Host.divf a b i = Ideal.div (a i) (b i) := rfl

/-- The aggregate in the host's own spelling (`Host.scatterAdd` of a `Host.gather`), generic in the sizes: rewrite a
    program's term with this form, after making both sides syntactic, rather than letting a term at literal sizes be
    unified against the sum. -/
theorem agg_host (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (srcI dstI : IVec ⟨2, ![E, 1]⟩ 32) (z : FVec Ideal ⟨2, ![N, C]⟩ .f32) (hz : ∀ i, z i = 0)
    (Y : FVec Ideal ⟨2, ![N, C]⟩ .f32) (s : Fin N) (f : Fin C) :
    Host.scatterAdd (F := Ideal) (φ := .f32) (Cert.LibSegPool.poolDims N E C wfS) z dstI
        (Host.gather (Cert.LibGatherRows.rowsDims N C E wfG) Y srcI) (ix2 s f)
      = aggAt hN srcI dstI Y s f :=
  agg_apply hN wfS wfG srcI dstI z hz Y s f

/-- The in-degree in the host's own spelling, generic in the sizes. -/
theorem deg_host (wfV : ScatterDims.WF ⟨1, ![N]⟩ ⟨2, ![E, 1]⟩ ⟨1, ![E]⟩ [] [0] [0] 1)
    (dstI : IVec ⟨2, ![E, 1]⟩ 32) (z : FVec Ideal ⟨1, ![N]⟩ .f32) (hz : ∀ i, z i = 0)
    (u : FVec Ideal ⟨1, ![E]⟩ .f32) (hu : ∀ i, u i = 1) (s : Fin N) :
    Host.scatterAdd (F := Ideal) (φ := .f32) (Cert.LibGraphOps.vecScatterDims N E wfV) z dstI u (ix1 s) = degAt dstI s :=
  deg_apply wfV dstI z hz u hu s

end Cert.LibEdgeAgg

end
-- ==== Proof.LibLoraLaw.lean ====
/-
  The algebra of a linear layer with a low-rank update, on the extended reals.

  A layer maps a row v to  v·Wᵀ + b + (v·Aᵀ)·Bᵀ.  Folding the update into the weight, W' = W + B·A, the same row is
  v·W'ᵀ + b.  The two agree wherever every entry is a real number: the identity is distributivity and a change of
  the order of summation, which the extended reals only grant away from the infinities.  Real entries stay real
  through sums, products and tanh, so a stack of such layers can be compared layer by layer.
  Also here: a sum over G·K positions of a summand that vanishes outside the g-th group of K is the sum over that group.
-/
import Idealize.ShloMosaic.PureOps.Ideal.Laws

noncomputable section

open scoped BigOperators

namespace Cert.LibLoraLaw

/-- An extended real that is a real number. -/
def IsReal (x : EReal) : Prop := ∃ r : ℝ, x = (r : EReal)

theorem isReal_coe (r : ℝ) : IsReal (r : EReal) := ⟨r, rfl⟩

theorem isReal_zero : IsReal 0 := ⟨0, rfl⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

/-- A finite sum of real numbers is a real number. -/
theorem isReal_sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h _ (Finset.mem_insert_self _ _)).add (ih fun i hi => h i (Finset.mem_insert_of_mem hi))

/-- tanh of anything is a real number (it is ±1 at the infinities). -/
theorem isReal_tanh (x : EReal) : IsReal (Idealize.ShloMosaic.Ideal.tanh x) := by
  induction x using EReal.rec with
  | bot => exact ⟨-1, by simp⟩
  | coe r => exact ⟨Real.tanh r, rfl⟩
  | top => exact ⟨1, by simp⟩

/-- The inclusion of the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A family of real extended reals is the image of a family of reals. -/
theorem exists_real_family {ι : Type*} (f : ι → EReal) (h : ∀ i, IsReal (f i)) : ∃ g : ι → ℝ, f = fun i => (g i : EReal) :=
  ⟨fun i => (h i).choose, funext fun i => (h i).choose_spec⟩

/-- One output of the layer with the update folded into the weight: Σ_k v_k (W_k + Σ_r B_r A_{r k}) + b. -/
def foldedOut {κ ρ : Type*} [Fintype κ] [Fintype ρ] (v W : κ → EReal) (b : EReal) (A : ρ → κ → EReal) (B : ρ → EReal) : EReal :=
  (∑ k, v k * (W k + ∑ r, B r * A r k)) + b

/-- One output of the layer as the reference spells it: Σ_k v_k W_k + b + Σ_r (Σ_k v_k A_{r k}) B_r. -/
def splitOut {κ ρ : Type*} [Fintype κ] [Fintype ρ] (v W : κ → EReal) (b : EReal) (A : ρ → κ → EReal) (B : ρ → EReal) : EReal :=
  (∑ k, v k * W k) + b + ∑ r, (∑ k, v k * A r k) * B r

/-- Folding the low-rank update into the weight does not change the layer's output, when the row, the weight and the
    two factors are real: v·(W + B A)ᵀ = v·Wᵀ + (v·Aᵀ)·Bᵀ by distributivity and exchanging the two sums. -/
theorem folded_eq_split {κ ρ : Type*} [Fintype κ] [Fintype ρ] (v W : κ → EReal) (b : EReal) (A : ρ → κ → EReal) (B : ρ → EReal)
    (hv : ∀ k, IsReal (v k)) (hW : ∀ k, IsReal (W k)) (hA : ∀ r k, IsReal (A r k)) (hB : ∀ r, IsReal (B r)) :
    foldedOut v W b A B = splitOut v W b A B := by
  obtain ⟨v', rfl⟩ := exists_real_family v hv
  obtain ⟨W', rfl⟩ := exists_real_family W hW
  obtain ⟨B', rfl⟩ := exists_real_family B hB
  obtain ⟨A', hA'⟩ : ∃ g : ρ → κ → ℝ, A = fun r k => (g r k : EReal) :=
    ⟨fun r k => (hA r k).choose, funext fun r => funext fun k => (hA r k).choose_spec⟩
  subst hA'
  unfold foldedOut splitOut
  have key : (∑ k, v' k * (W' k + ∑ r, B' r * A' r k)) = (∑ k, v' k * W' k) + ∑ r, (∑ k, v' k * A' r k) * B' r := by
    simp only [mul_add, Finset.sum_add_distrib, Finset.mul_sum, Finset.sum_mul]
    congr 1
    rw [Finset.sum_comm]
    exact Finset.sum_congr rfl fun r _ => Finset.sum_congr rfl fun k _ => by ring
  have e1 : (∑ k, (v' k : EReal) * ((W' k : EReal) + ∑ r, (B' r : EReal) * (A' r k : EReal)))
      = ((∑ k, v' k * (W' k + ∑ r, B' r * A' r k) : ℝ) : EReal) := by
    rw [coe_sum]
    refine Finset.sum_congr rfl fun k _ => ?_
    rw [EReal.coe_mul, EReal.coe_add, coe_sum]
    simp only [EReal.coe_mul]
  have e2 : (∑ k, (v' k : EReal) * (W' k : EReal)) + ∑ r, (∑ k, (v' k : EReal) * (A' r k : EReal)) * (B' r : EReal)
      = (((∑ k, v' k * W' k) + ∑ r, (∑ k, v' k * A' r k) * B' r : ℝ) : EReal) := by
    rw [EReal.coe_add, coe_sum, coe_sum]
    have a1 : ∀ k, ((v' k * W' k : ℝ) : EReal) = (v' k : EReal) * (W' k : EReal) := fun k => EReal.coe_mul _ _
    have a2 : ∀ r, (((∑ k, v' k * A' r k) * B' r : ℝ) : EReal) = (∑ k, (v' k : EReal) * (A' r k : EReal)) * (B' r : EReal) :=
      fun r => by
        rw [EReal.coe_mul, coe_sum]
        simp only [EReal.coe_mul]
    simp only [a1, a2]
  rw [e1, key, ← e2, add_right_comm]

/-- The folded layer's output is real when everything that enters it is. -/
theorem isReal_foldedOut {κ ρ : Type*} [Fintype κ] [Fintype ρ] (v W : κ → EReal) (b : EReal) (A : ρ → κ → EReal) (B : ρ → EReal)
    (hv : ∀ k, IsReal (v k)) (hW : ∀ k, IsReal (W k)) (hb : IsReal b) (hA : ∀ r k, IsReal (A r k)) (hB : ∀ r, IsReal (B r)) :
    IsReal (foldedOut v W b A B) :=
  (isReal_sum _ _ fun k _ => (hv k).mul ((hW k).add (isReal_sum _ _ fun r _ => (hB r).mul (hA r k)))).add hb

/-- A sum over N positions of a summand that vanishes outside the g-th group of K consecutive positions is the sum
    over that group. -/
theorem sum_group {N K : ℕ} (hK : 0 < K) (g : ℕ) (hg : K * g + K ≤ N) (φ : Fin N → EReal) :
    (∑ l : Fin N, if l.val / K = g then φ l else 0)
      = ∑ k : Fin K, φ ⟨K * g + k.val, by have := k.isLt; omega⟩ := by
  rw [← Finset.sum_filter]
  symm
  refine Finset.sum_bij (fun (k : Fin K) _ => (⟨K * g + k.val, by have := k.isLt; omega⟩ : Fin N)) ?_ ?_ ?_ ?_
  · intro k _
    simp only [Finset.mem_filter, Finset.mem_univ, true_and]
    rw [Nat.mul_add_div hK, Nat.div_eq_of_lt k.isLt, Nat.add_zero]
  · intro k₁ _ k₂ _ h
    have := congrArg Fin.val h
    simp only at this
    exact Fin.ext (by omega)
  · intro l hl
    simp only [Finset.mem_filter, Finset.mem_univ, true_and] at hl
    refine ⟨⟨l.val % K, Nat.mod_lt _ hK⟩, Finset.mem_univ _, Fin.ext ?_⟩
    simp only
    rw [← hl]
    exact Nat.div_add_mod l.val K
  · intro k _
    rfl

end Cert.LibLoraLaw

end
-- ==== Proof.LibRecipDiv.lean ====
/-
  Dividing by a nonzero extended real is multiplying by its reciprocal.

  On the extended reals the ideal quotient x / y is x · y⁻¹ whenever y ≠ 0 (y may be infinite: its inverse is then 0),
  and 1 / y is y⁻¹.  So a program that scales by a precomputed reciprocal 1 / c and one that divides by c agree as soon
  as c is not zero — no finiteness of x or c is needed.  A count clamped below by one (max n 1) is such a c.
-/
import Idealize.ShloMosaic.PureOps.Ideal.Laws

noncomputable section

namespace Cert.LibRecipDiv

open Idealize.ShloMosaic

/-- The f32 word 0x3F800000 denotes the number one. -/
theorem ofBits_one_f32 : Ideal.ofBits .f32 0x3F800000#32 = 1 := by
  simp [Ideal.ofBits, Ideal.ieee, -EReal.coe_mul]; norm_num

/-- For `c ≠ 0` (finite or not), `x · (1 / c) = x / c` at the ideal values: both are `x · c⁻¹`. -/
theorem mul_one_div (x c : EReal) (hc : c ≠ 0) : x * Ideal.div 1 c = Ideal.div x c := by
  unfold Ideal.div
  rw [if_neg hc, if_neg hc, one_mul]

/-- Anything clamped below by one is not zero. -/
theorem max_one_ne_zero (n : EReal) : max n 1 ≠ 0 :=
  (lt_of_lt_of_le zero_lt_one (le_max_right n 1)).ne'

/-- The same with the one spelt as its f32 word, as a clamp against a float constant prints. -/
theorem max_oneWord_ne_zero (n : EReal) : max n (Ideal.ofBits .f32 0x3F800000#32) ≠ 0 := by
  rw [ofBits_one_f32]
  exact max_one_ne_zero n

end Cert.LibRecipDiv

end
-- ==== Proof.LibMeanLaw.lean ====
/-
  The algebra that joins the two arrangements of the second layer.

  Write  P n  for "edge n ends at the node in question",  h n k  for the hidden row of edge n's source node,  w  for a
  column of the neighbour weight and  M  for the clamped in-degree.  One program projects every node's hidden row first
  and averages the projections,  (Σ_{P n} Σ_k h n k · w k) · (1 / M);  the other averages the hidden rows and projects
  the mean,  Σ_k ((Σ_{P n} h n k) / M) · w k.  On real numbers the two are one number: the projection is linear and
  the mean is a sum scaled by a constant.  On the extended reals distributivity needs every entry real, so the
  statement carries that hypothesis, and the module shows that the quantities entering it are real.
-/
import Idealize.ShloMosaic.PureOps.Ideal.Laws
import proofs.«180790_j71236327571567_2_alg».proof.Proof.LibLoraLaw
import proofs.«180790_j71236327571567_2_alg».proof.Proof.LibRecipDiv

noncomputable section

open scoped BigOperators

namespace Cert.LibMeanLaw

open Idealize.ShloMosaic Cert.LibLoraLaw

/-- A conditional sum of reals, started from zero, is real. -/
theorem isReal_condSum {ι : Type*} [Fintype ι] (P : ι → Prop) [DecidablePred P] (y : ι → EReal) (hy : ∀ n, IsReal (y n)) :
    IsReal (0 + ∑ n, if P n then y n else 0) := by
  refine isReal_zero.add (isReal_sum _ _ fun n _ => ?_)
  split
  · exact hy n
  · exact isReal_zero

/-- The maximum of two reals is real. -/
theorem IsReal.max {x y : EReal} (hx : IsReal x) (hy : IsReal y) : IsReal (max x y) := by
  rcases le_total x y with h | h
  · rw [max_eq_right h]; exact hy
  · rw [max_eq_left h]; exact hx

/-- The reciprocal of a nonzero real is real. -/
theorem isReal_recip {M : EReal} (hM : IsReal M) (hM0 : M ≠ 0) : IsReal (Ideal.div 1 M) := by
  obtain ⟨m, rfl⟩ := hM
  unfold Ideal.div
  rw [if_neg hM0, one_mul]
  exact ⟨m⁻¹, (EReal.coe_inv m).symm⟩

/-- A quotient by a nonzero real is the product with the reciprocal. -/
theorem div_eq_mul_recip (x M : EReal) (hM0 : M ≠ 0) : Ideal.div x M = x * Ideal.div 1 M :=
  (Cert.LibRecipDiv.mul_one_div x M hM0).symm

/-- THE LAW: averaging the projections is projecting the average, on real entries. -/
theorem mean_of_proj {ι κ : Type*} [Fintype ι] [Fintype κ] (P : ι → Prop) [DecidablePred P] (h : ι → κ → EReal) (w : κ → EReal)
    (M : EReal) (hh : ∀ n k, IsReal (h n k)) (hw : ∀ k, IsReal (w k)) (hM : IsReal M) (hM0 : M ≠ 0) :
    (0 + ∑ n, if P n then ∑ k, h n k * w k else 0) * Ideal.div 1 M
      = ∑ k, Ideal.div (0 + ∑ n, if P n then h n k else 0) M * w k := by
  obtain ⟨ρ, hρ⟩ := isReal_recip hM hM0
  have e : ∀ x, Ideal.div x M = x * (ρ : EReal) := fun x => (div_eq_mul_recip x M hM0).trans (by rw [hρ])
  rw [hρ]
  simp only [e]
  obtain ⟨w', rfl⟩ := exists_real_family w hw
  obtain ⟨h', hh'⟩ : ∃ g : ι → κ → ℝ, h = fun n k => (g n k : EReal) :=
    ⟨fun n k => (hh n k).choose, funext fun n => funext fun k => (hh n k).choose_spec⟩
  subst hh'
  have eL : (0 + ∑ n, if P n then ∑ k, (h' n k : EReal) * (w' k : EReal) else 0) * (ρ : EReal)
      = (((∑ n, if P n then ∑ k, h' n k * w' k else 0) * ρ : ℝ) : EReal) := by
    rw [EReal.coe_mul, coe_sum, zero_add]
    congr 1
    refine Finset.sum_congr rfl fun n _ => ?_
    split
    · rw [coe_sum]; simp only [EReal.coe_mul]
    · rfl
  have eR : ∀ k, (0 + ∑ n, if P n then (h' n k : EReal) else 0) * (ρ : EReal) * (w' k : EReal)
      = ((((∑ n, if P n then h' n k else 0) * ρ) * w' k : ℝ) : EReal) := by
    intro k
    rw [EReal.coe_mul, EReal.coe_mul, coe_sum, zero_add]
    congr 2
    refine Finset.sum_congr rfl fun n _ => ?_
    split <;> rfl
  rw [eL]
  simp only [eR]
  rw [← coe_sum]
  congr 1
  simp only [Finset.sum_mul]
  rw [Finset.sum_comm]
  refine Finset.sum_congr rfl fun n _ => ?_
  split
  · rw [Finset.sum_mul]
    refine Finset.sum_congr rfl fun k _ => ?_
    ring
  · simp

end Cert.LibMeanLaw

end
-- ==== Proof.Model.lean ====
/-
  The two arrangements of the two-layer mean-aggregation network, and their equality on real inputs.

  Both programs compute the hidden layer H from the node features, their aggregate and the clamped in-degree; one
  multiplies the aggregate by a precomputed reciprocal of the clamped degree, the other divides by it, which is the same
  extended real because the clamped degree is at least one.  For the output layer one program projects H by the
  neighbour weight at every node, aggregates the projections and scales by the reciprocal; the other aggregates H, divides
  by the clamped degree and projects.  These agree because H, the weight and the degree are real numbers
  (`Cert.LibMeanLaw.mean_of_proj`); H is real because the features, the weights and the bias are.
-/
import proofs.«180790_j71236327571567_2_alg».proof.Proof.Spec
import proofs.«180790_j71236327571567_2_alg».proof.Proof.LibEdgeAgg
import proofs.«180790_j71236327571567_2_alg».proof.Proof.LibMeanLaw

noncomputable section

open scoped BigOperators

namespace Cert.SageModel

open Idealize.ShloMosaic Idealize.ShloMosaic.ValueIdx Cert.Sage Cert.LibEdgeAgg Cert.LibMeanLaw Cert.LibLoraLaw

theorem hN : 0 < 50000 := by decide

/-- The edge positions as the programs hold them: an [800000, 1] array of 32-bit words. -/
abbrev EdgeIdx := IVec ⟨2, ![800000, 1]⟩ 32

/-- The in-degree clamped below by one. -/
def clampDeg (dstI : EdgeIdx) (r : Fin 50000) : EReal := max (degAt dstI r) 1

/-- The mean factor as a column: the reciprocal of the clamped degree. -/
def meanFactor (dstI : EdgeIdx) : SNx1.Idx → EReal := arr2 fun r _ => Ideal.div 1 (clampDeg dstI r)

/-- The aggregate of an array's rows over the edges, as an array. -/
def aggArr {C : ℕ} (srcI dstI : EdgeIdx) (Y : (⟨2, ![50000, C]⟩ : Shape).Idx → EReal) : (⟨2, ![50000, C]⟩ : Shape).Idx → EReal :=
  arr2 (aggAt hN srcI dstI Y)

/-- The hidden layer, the aggregate scaled by the mean factor. -/
def hiddenK (X : SNx256.Idx → EReal) (srcI dstI : EdgeIdx) (Ws Wn : SW256.Idx → EReal) (b : SB256.Idx → EReal) : SNx256.Idx → EReal :=
  Sage.hidden X (aggArr srcI dstI X) (meanFactor dstI) Ws Wn b

/-- The first arrangement: project, aggregate, scale. -/
def kernelOut (X : SNx256.Idx → EReal) (srcI dstI : EdgeIdx) (Ws Wn : SW256.Idx → EReal) (b : SB256.Idx → EReal)
    (W2s W2n : SW128.Idx → EReal) (b2 : SB128.Idx → EReal) : SNx128.Idx → EReal :=
  out (hiddenK X srcI dstI Ws Wn b) (aggArr srcI dstI (proj (hiddenK X srcI dstI Ws Wn b) W2n)) (meanFactor dstI) W2s b2

/-- The hidden layer with the aggregate divided by the clamped degree, at coordinates. -/
def hiddenRefAt (X : SNx256.Idx → EReal) (srcI dstI : EdgeIdx) (Ws Wn : SW256.Idx → EReal) (b : SB256.Idx → EReal)
    (r : Fin 50000) (k : Fin 256) : EReal :=
  max ((∑ l : Fin 256, X (ix2 r l) * Ws (ix2 l k))
      + (∑ l : Fin 256, Ideal.div (aggAt hN srcI dstI X r l) (clampDeg dstI r) * Wn (ix2 l k)) + b (ix1 k)) 0

/-- The second arrangement at coordinates: aggregate, divide, project. -/
def refOutAt (H : SNx256.Idx → EReal) (srcI dstI : EdgeIdx) (W2s W2n : SW128.Idx → EReal) (b2 : SB128.Idx → EReal)
    (r : Fin 50000) (g : Fin 128) : EReal :=
  ((∑ k : Fin 256, H (ix2 r k) * W2s (ix2 k g))
      + ∑ k : Fin 256, Ideal.div (aggAt hN srcI dstI H r k) (clampDeg dstI r) * W2n (ix2 k g)) + b2 (ix1 g)

theorem clampDeg_ne_zero (dstI : EdgeIdx) (r : Fin 50000) : clampDeg dstI r ≠ 0 :=
  Cert.LibRecipDiv.max_one_ne_zero _

theorem isReal_one : IsReal (1 : EReal) := ⟨1, rfl⟩

theorem isReal_clampDeg (dstI : EdgeIdx) (r : Fin 50000) : IsReal (clampDeg dstI r) :=
  IsReal.max (isReal_condSum _ _ fun _ => isReal_one) isReal_one

/-- Scaling by the reciprocal is dividing: the two spellings of the hidden layer are one array. -/
theorem hiddenRef_eq (X : SNx256.Idx → EReal) (srcI dstI : EdgeIdx) (Ws Wn : SW256.Idx → EReal) (b : SB256.Idx → EReal) :
    arr2 (hiddenRefAt X srcI dstI Ws Wn b) = hiddenK X srcI dstI Ws Wn b := by
  unfold hiddenK Sage.hidden
  refine congrArg arr2 (funext fun r => funext fun k => ?_)
  unfold hiddenRefAt hiddenAt
  refine congrArg (fun t => max ((∑ l : Fin 256, X (ix2 r l) * Ws (ix2 l k)) + t + b (ix1 k)) 0) ?_
  refine Finset.sum_congr rfl fun l _ => ?_
  refine congrArg (fun t => t * Wn (ix2 l k)) ?_
  exact (Cert.LibRecipDiv.mul_one_div _ _ (clampDeg_ne_zero dstI r)).symm

/-- The hidden layer of real inputs is real. -/
theorem isReal_hiddenK (X : SNx256.Idx → EReal) (srcI dstI : EdgeIdx) (Ws Wn : SW256.Idx → EReal) (b : SB256.Idx → EReal)
    (hX : ∀ i, IsReal (X i)) (hWs : ∀ i, IsReal (Ws i)) (hWn : ∀ i, IsReal (Wn i)) (hb : ∀ i, IsReal (b i))
    (r : Fin 50000) (k : Fin 256) : IsReal (hiddenK X srcI dstI Ws Wn b (ix2 r k)) := by
  show IsReal (hiddenAt X (aggArr srcI dstI X) (meanFactor dstI) Ws Wn b r k)
  unfold hiddenAt
  refine IsReal.max (((isReal_sum _ _ fun l _ => (hX _).mul (hWs _)).add
    (isReal_sum _ _ fun l _ => (IsReal.mul ?_ ?_).mul (hWn _))).add (hb _)) isReal_zero
  · show IsReal (aggAt hN srcI dstI X r l)
    exact isReal_condSum _ _ fun _ => hX _
  · show IsReal (Ideal.div 1 (clampDeg dstI r))
    exact isReal_recip (isReal_clampDeg dstI r) (clampDeg_ne_zero dstI r)

/-- THE TWO ARRANGEMENTS AGREE on real features, weights and bias. -/
theorem kernelOut_eq (X : SNx256.Idx → EReal) (srcI dstI : EdgeIdx) (Ws Wn : SW256.Idx → EReal) (b : SB256.Idx → EReal)
    (W2s W2n : SW128.Idx → EReal) (b2 : SB128.Idx → EReal)
    (hX : ∀ i, IsReal (X i)) (hWs : ∀ i, IsReal (Ws i)) (hWn : ∀ i, IsReal (Wn i)) (hb : ∀ i, IsReal (b i))
    (hW2n : ∀ i, IsReal (W2n i)) :
    kernelOut X srcI dstI Ws Wn b W2s W2n b2
      = arr2 (refOutAt (arr2 (hiddenRefAt X srcI dstI Ws Wn b)) srcI dstI W2s W2n b2) := by
  rw [hiddenRef_eq]
  unfold kernelOut out
  refine congrArg arr2 (funext fun r => funext fun g => ?_)
  unfold outAt refOutAt
  refine congrArg (fun t => (∑ k : Fin 256, hiddenK X srcI dstI Ws Wn b (ix2 r k) * W2s (ix2 k g)) + t + b2 (ix1 g)) ?_
  show aggAt hN srcI dstI (proj (hiddenK X srcI dstI Ws Wn b) W2n) r g * Ideal.div 1 (clampDeg dstI r) = _
  unfold aggAt
  exact mean_of_proj (fun n : Fin 800000 => (dstI (ix2 n (0 : Fin 1))).toInt = (r.val : ℤ))
    (fun n k => hiddenK X srcI dstI Ws Wn b (ix2 (rowOf hN srcI n) k)) (fun k => W2n (ix2 k g)) (clampDeg dstI r)
    (fun n k => isReal_hiddenK X srcI dstI Ws Wn b hX hWs hWn hb _ k) (fun k => hW2n _)
    (isReal_clampDeg dstI r) (clampDeg_ne_zero dstI r)

end Cert.SageModel

end
-- ==== Proof.HostAgg.lean ====
/-
  The host chains around the two kernels are the edge aggregation and the mean factor.

  The scatter-add of gathered rows is the aggregate over the edges; the broadcast reciprocal of the in-degree clamped below
  by one is the mean factor.  Each printed chain is identified, index by index, with the array it denotes.
-/
import proofs.«180790_j71236327571567_2_alg».proof.Proof.HostValue
import proofs.«180790_j71236327571567_2_alg».proof.Proof.Model

noncomputable section

open scoped BigOperators

namespace Cert.KernelIdeal.HostValue

open Cert.KernelIdeal Cert.KernelIdeal.Gen
open Idealize.ShloMosaic Idealize.ShloMosaic.ValueIdx
open Cert.Sage Cert.LibEdgeAgg Cert.SageModel

/-! ## The printed dimension records are the segment-sum, row-gather and count records -/

theorem sd256_eq : scatter_S50000x256_S800000x1_S800000x256_1_0_0_1
    = Cert.LibSegPool.poolDims 50000 800000 256 Facts₀.scatter_S50000x256_S800000x1_S800000x256_1_0_0_1_wf := rfl

theorem gd256_eq : gather_S50000x256_S800000x1_S800000x256_1_0_n_n_0_1_1256
    = Cert.LibGatherRows.rowsDims 50000 256 800000 Facts₀.gather_S50000x256_S800000x1_S800000x256_1_0_n_n_0_1_1256_wf := rfl

theorem sd128_eq : scatter_S50000x128_S800000x1_S800000x128_1_0_0_1
    = Cert.LibSegPool.poolDims 50000 800000 128 Facts₀.scatter_S50000x128_S800000x1_S800000x128_1_0_0_1_wf := rfl

theorem gd128_eq : gather_S50000x128_S800000x1_S800000x128_1_0_n_n_0_1_1128
    = Cert.LibGatherRows.rowsDims 50000 128 800000 Facts₀.gather_S50000x128_S800000x1_S800000x128_1_0_n_n_0_1_1128_wf := rfl

theorem sdv_eq : scatter_S50000_S800000x1_S800000_n_0_0_1
    = Cert.LibGraphOps.vecScatterDims 50000 800000 Facts₀.scatter_S50000_S800000x1_S800000_n_0_0_1_wf := rfl

/-- A scalar constant spread over a shape reads the constant at every index. -/
theorem splat_apply {s : Shape} (hb : (S_ : Shape).BroadcastsInDim s ![]) (w : BitVec 32) (i : s.Idx) :
    broadcastInDim s ![] hb (constant (F := Ideal) S_ .f32 w) i = Ideal.ofBits .f32 w :=
  broadcastInDim_apply _ hb _ i ix0 (fun a => a.elim0)

/-- The aggregate of the node features. -/
theorem aggFeat_eq (x0 : FVec Ideal S50000x256 .f32) (x1 x2 : IVec S800000 32) :
    aggFeat x0 x1 x2 = aggArr (srcIdx x1) (dstIdx x2) x0 := by
  funext i
  obtain ⟨s, f, rfl⟩ : ∃ (s : Fin 50000) (f : Fin 256), i = ix2 s f := ⟨i 0, i 1, eq_ix2 i⟩
  unfold aggFeat aggArr
  rw [arr2_ix2, sd256_eq, gd256_eq]
  exact agg_host hN _ _ (srcIdx x1) (dstIdx x2) _ (fun j => (splat_apply _ _ j).trans Ideal.ofBits_zero_f32) x0 s f

/-- The aggregate of a 128-column array. -/
theorem aggProj_eq (t : FVec Ideal S50000x128 .f32) (x1 x2 : IVec S800000 32) :
    aggProj t x1 x2 = aggArr (srcIdx x1) (dstIdx x2) t := by
  funext i
  obtain ⟨s, f, rfl⟩ : ∃ (s : Fin 50000) (f : Fin 128), i = ix2 s f := ⟨i 0, i 1, eq_ix2 i⟩
  unfold aggProj aggArr
  rw [arr2_ix2, sd128_eq, gd128_eq]
  exact agg_host hN _ _ (srcIdx x1) (dstIdx x2) _ (fun j => (splat_apply _ _ j).trans Ideal.ofBits_zero_f32) t s f

/-- The mean factor column. -/
theorem meanCol_eq (x2 : IVec S800000 32) : meanCol x2 = meanFactor (dstIdx x2) := by
  funext i
  obtain ⟨r, z, rfl⟩ : ∃ (r : Fin 50000) (z : Fin 1), i = ix2 r z := ⟨i 0, i 1, eq_ix2 i⟩
  unfold meanCol meanFactor clampDeg
  rw [arr2_ix2, Cert.LibGraphOps.bcast_col_apply, hostDivf_apply, maximumf_apply, splat_apply,
    Cert.LibRecipDiv.ofBits_one_f32, sdv_eq,
    deg_host _ (dstIdx x2) _ (fun j => (splat_apply _ _ j).trans Ideal.ofBits_zero_f32) _
      (fun j => (splat_apply _ _ j).trans Cert.LibRecipDiv.ofBits_one_f32) r]

end Cert.KernelIdeal.HostValue

end
-- ==== Proof.LibColumn.lean ====
/-
  Two keepdims column layouts read at an index given by coordinates.

  A length-a vector viewed as an a×1 column reads, at (i, 0), the vector at i; an a×1 column broadcast over b
  columns reads, at (p, c), the column's entry at row p.
-/
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibPlainDot.lean ====
/-
  The plain matrix product read at an index.

  For the dimension numbers of an M×K by K×N product (contract the left operand's axis 1 with the right operand's
  axis 0, no batch axes), the sum over the contraction index that both a matmul into a zero accumulator and a
  host dot_general denote at the ideal values is the textbook one: entry (p, q) is the sum over l of
  lhs (p, l) · rhs (l, q).
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : ℕ}

/-- Row coordinate of the left operand's index: the output's row. -/
theorem lhs_row (j : (⟨2, ![M, N]⟩ : Shape).Idx) (k : (DotDims.plain M K N).contr.Idx) :
    ((DotDims.plain M K N).lhsIdx j k 0).val = (j 0).val := by
  unfold DotDims.lhsIdx
  have hb : ¬(0 : Fin 2) ∈ (DotDims.plain M K N).lhsBatch := List.not_mem_nil
  have hn : (0 : Fin 2) ∈ (DotDims.plain M K N).lhsNonContracting := List.mem_singleton.mpr rfl
  rw [dif_neg hb, dif_pos hn]
  rfl

/-- Column coordinate of the left operand's index: the contraction position. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- Row coordinate of the right operand's index: the contraction position. -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- Column coordinate of the right operand's index: the output's column. -/
theorem rhs_col (j : (⟨2, ![M, N]⟩ : Shape).Idx) (k : (DotDims.plain M K N).contr.Idx) :
    ((DotDims.plain M K N).rhsIdx j k 1).val = (j 1).val := by
  unfold DotDims.rhsIdx
  have hb : ¬(1 : Fin 2) ∈ (DotDims.plain M K N).rhsBatch := List.not_mem_nil
  have hn : (1 : Fin 2) ∈ (DotDims.plain M K N).rhsNonContracting := List.mem_singleton.mpr rfl
  rw [dif_neg hb, dif_pos hn]
  rfl

/-- The contraction sum of a plain product at entry (p, q), re-indexed by the one contraction coordinate. -/
theorem contr_sum (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ l : Fin K, lhs (ix2 p l) * rhs (ix2 l q) := by
  rw [← Equiv.sum_comp (contrEquiv1 (DotDims.plain M K N) K rfl rfl).symm]
  refine Finset.sum_congr rfl fun l _ => ?_
  have hl := contrEquiv1_symm_val (DotDims.plain M K N) K rfl rfl l
  have el : (DotDims.plain M K N).lhsIdx (ix2 p q) ((contrEquiv1 (DotDims.plain M K N) K rfl rfl).symm l) = ix2 p l :=
    funext fun a => Fin.ext (by
      match a with
      | ⟨0, _⟩ => exact lhs_row _ _
      | ⟨1, _⟩ => exact (lhs_col _ _).trans hl)
  have er : (DotDims.plain M K N).rhsIdx (ix2 p q) ((contrEquiv1 (DotDims.plain M K N) K rfl rfl).symm l) = ix2 l q :=
    funext fun a => Fin.ext (by
      match a with
      | ⟨0, _⟩ => exact (rhs_row _ _).trans hl
      | ⟨1, _⟩ => exact rhs_col _ _)
  rw [el, er]

/-- A matmul of plain dimension numbers into the zero accumulator, at the ideal values, read at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ l : Fin K, lhs (ix2 p l) * rhs (ix2 l q) :=
  (Ideal.matmul_constant_zero_apply (DotDims.plain M K N) prec lhs rhs (ix2 p q)).trans (contr_sum lhs rhs p q)

/-- A host dot_general of plain dimension numbers, at the ideal values, read at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  (Ideal.dotGeneral_apply (DotDims.plain M K N) prec sched lhs rhs (ix2 p q)).trans (contr_sum lhs rhs p q)

end Cert.LibPlainDot

end
-- ==== Proof.Layer1Pay.lean ====
/-
  The layer-1 body's two stored values, read at an entry of a block.

  For a block of 2000 nodes the body holds the features x, the aggregated features s and the mean-factor column d of
  those nodes, and the whole weight matrices.  It stores
      h (p, q) = max (Σ_l x (p, l)·ws (l, q) + Σ_l (s (p, l)·d (p, 0))·wn (l, q) + b q) 0
  and the projection  Σ_k h (p, k)·w2 (k, g)  of what it has just stored.  Both matrix products accumulate into a
  zero matrix, so each is the plain sum over the contraction index; the column d is repeated along a row and the
  bias b along a column.
-/
import proofs.«180790_j71236327571567_2_alg».proof.Proof.Gen.KernelIdeal.Skeleton
import proofs.«180790_j71236327571567_2_alg».proof.Proof.LibColumn
import proofs.«180790_j71236327571567_2_alg».proof.Proof.LibPlainDot
import Idealize.ShloMosaic.Lib.Pipeline.Value
import Idealize.ShloMosaic.Lib.ValueLayout

noncomputable section

open scoped BigOperators
open Idealize.ShloMosaic Idealize.ShloMosaic.ValueIdx

namespace Cert.KernelIdeal.Layer1

open Cert.KernelIdeal Cert.KernelIdeal.Gen

/-- The 2000×256 by 256×256 product's dimension numbers are the plain ones. -/
theorem dims256_eq : dot_S2000x256_S256x256_S2000x256_1_0_0_1_n_n = DotDims.plain 2000 256 256 := rfl

/-- The 2000×256 by 256×128 product's dimension numbers are the plain ones. -/
theorem dims128_eq : dot_S2000x256_S256x128_S2000x128_1_0_0_1_n_n = DotDims.plain 2000 256 128 := rfl

/-- The hidden value of a block at node p, unit q. -/
def hiddenBlk (d : Vec Ideal S2000x1 .f32) (s x : Vec Ideal S2000x256 .f32) (ws wn : Vec Ideal S256x256 .f32)
    (b : Vec Ideal S256 .f32) (p : Fin 2000) (q : Fin 256) : EReal :=
  max ((∑ l : Fin 256, x (ix2 p l) * ws (ix2 l q)) + (∑ l : Fin 256, (s (ix2 p l) * d (ix2 p (0 : Fin 1))) * wn (ix2 l q))
    + b (ix1 q)) 0

/-- The stored hidden block, entry by entry: both products are plain sums, the mean-factor column is read at the entry's
    row and the bias at its column. -/
theorem pay1_apply (d : Vec Ideal S2000x1 .f32) (s x : Vec Ideal S2000x256 .f32) (ws wn : Vec Ideal S256x256 .f32)
    (b : Vec Ideal S256 .f32) (p : Fin 2000) (q : Fin 256) :
    k0_pay1 (F := Ideal) d s x ws wn b (ix2 p q) = hiddenBlk d s x ws wn b p q := by
  unfold k0_pay1 hiddenBlk
  rw [maximumf_apply, addf_apply, addf_apply, broadcast_apply]
  refine congrArg₂ max (congrArg₂ (· + ·) (congrArg₂ (· + ·) ?_ ?_) ?_) Ideal.ofBits_zero_f32
  · rw [dims256_eq]
    exact Cert.LibPlainDot.matmul_zero_apply none _ _ p q
  · rw [dims256_eq]
    refine (Cert.LibPlainDot.matmul_zero_apply none _ _ p q).trans ?_
    refine Finset.sum_congr rfl fun l _ => ?_
    rw [truncf_apply, truncf_apply, mulf_apply, shapeCast_self, shapeCast_self, Cert.LibColumn.broadcastTo_a1_ab_apply]
  · rw [broadcastTo_1b_ab_apply, shapeCast_a_1a_apply]

/-- The projected value of a block at node p, column g: the block's hidden row against a column of the weights. -/
theorem pay2_apply (d : Vec Ideal S2000x1 .f32) (s x : Vec Ideal S2000x256 .f32) (ws wn : Vec Ideal S256x256 .f32)
    (b : Vec Ideal S256 .f32) (w2 : Vec Ideal S256x128 .f32) (p : Fin 2000) (g : Fin 128) :
    k0_pay2 (F := Ideal) d s x ws wn b w2 (ix2 p g) = ∑ k : Fin 256, hiddenBlk d s x ws wn b p k * w2 (ix2 k g) := by
  unfold k0_pay2
  rw [dims128_eq]
  refine (Cert.LibPlainDot.matmul_zero_apply none _ _ p g).trans ?_
  refine Finset.sum_congr rfl fun k _ => ?_
  rw [truncf_apply, truncf_apply, pay1_apply]

end Cert.KernelIdeal.Layer1

end
-- ==== Proof.Layer1Blocks.lean ====
/-
  The layer-1 windows' blocks as parts of their arrays.

  The node arrays (features, aggregated features, mean factors) are cut into 25 row blocks of 2000 nodes: at grid
  point t a window holds rows 2000·t … 2000·t + 1999 of its array, all columns.  The weight matrices and the bias are
  each one block, the whole array, at every point.  So the hidden value the body computes from its blocks at entry
  (p, q) is the hidden layer of the arrays at node 2000·t + p, unit q.
-/
import proofs.«180790_j71236327571567_2_alg».proof.Proof.Gen.KernelIdeal.Frame
import proofs.«180790_j71236327571567_2_alg».proof.Proof.Spec
import proofs.«180790_j71236327571567_2_alg».proof.Proof.Layer1Pay
import Idealize.ShloMosaic.Lib.Pipeline.Value

noncomputable section

open scoped BigOperators
open Idealize.ShloMosaic Idealize.ShloMosaic.TcCoe Idealize.SL.Sem Idealize.ShloMosaic.ValueIdx

namespace Cert.KernelIdeal.Layer1

open Cert.KernelIdeal Cert.KernelIdeal.Gen

variable (V : (c : Dev nD) → (b : Ref sig .tc) → Buf (Elt Ideal) ((c : Thread nD τ).loc b))

/-! ## Where a block sits in its array -/

/-- The block index of every row-blocked window at point t is (t, 0): block t holds rows 2000·t … 2000·t + 1999. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_7.index t (0 : Fin 2) = t.val ∧ win0_7.index t (1 : Fin 2) = 0)
    ∧ (win0_8.index t (0 : Fin 2) = t.val ∧ win0_8.index t (1 : Fin 2) = 0) :=
  (by decide +kernel : ∀ t : Fin grid0.N, _)

/-- The windows over the weights and the bias hold the whole array at every point: block index 0 on every axis. -/
theorem idx_whole : ∀ t : Fin cfg0.N,
    (win0_3.index t (0 : Fin 2) = 0 ∧ win0_3.index t (1 : Fin 2) = 0)
    ∧ (win0_4.index t (0 : Fin 2) = 0 ∧ win0_4.index t (1 : Fin 2) = 0)
    ∧ win0_5.index t (0 : Fin 1) = 0
    ∧ (win0_6.index t (0 : Fin 2) = 0 ∧ win0_6.index t (1 : Fin 2) = 0) :=
  (by decide +kernel : ∀ t : Fin grid0.N, _)

/-- Row p of the feature block at point t is row 2000·t + p of the feature array. -/
theorem xblk_apply (c : Dev nD) (t : Fin cfg0.N) (p : Fin 2000) (l : Fin 256) (r : Fin 50000)
    (hr : r.val = 2000 * t.val + p.val) :
    (iblk0 (F := Ideal) V c 0 t : Vec Ideal S2000x256 .f32) (ix2 p l) = (V c main_arg0 : S50000x256.Idx → EReal) (ix2 r l) := by
  obtain ⟨⟨e0, e1⟩, -⟩ := idx_rows t
  unfold iblk0
  rw [View.read_apply]
  show V c main_arg0 _ = V c main_arg0 _
  congr 1
  funext a
  apply Fin.ext
  match a with
  | ⟨0, _⟩ => show win0_0.index t (0 : Fin 2) * 2000 + 1 * p.val = r.val; rw [e0, hr]; omega
  | ⟨1, _⟩ => show win0_0.index t (1 : Fin 2) * 256 + 1 * l.val = l.val; rw [e1]; omega

/-- Row p of the aggregated-feature block at point t is row 2000·t + p of the aggregated features. -/
theorem sblk_apply (c : Dev nD) (t : Fin cfg0.N) (p : Fin 2000) (l : Fin 256) (r : Fin 50000)
    (hr : r.val = 2000 * t.val + p.val) :
    (iblk0 (F := Ideal) V c 1 t : Vec Ideal S2000x256 .f32) (ix2 p l) = (V c main_v18 : S50000x256.Idx → EReal) (ix2 r l) := by
  obtain ⟨-, ⟨e0, e1⟩, -⟩ := idx_rows t
  unfold iblk0
  rw [View.read_apply]
  show V c main_v18 _ = V c main_v18 _
  congr 1
  funext a
  apply Fin.ext
  match a with
  | ⟨0, _⟩ => show win0_1.index t (0 : Fin 2) * 2000 + 1 * p.val = r.val; rw [e0, hr]; omega
  | ⟨1, _⟩ => show win0_1.index t (1 : Fin 2) * 256 + 1 * l.val = l.val; rw [e1]; omega

/-- Entry p of the mean-factor block at point t is entry 2000·t + p of the mean-factor column. -/
theorem dblk_apply (c : Dev nD) (t : Fin cfg0.N) (p : Fin 2000) (r : Fin 50000)
    (hr : r.val = 2000 * t.val + p.val) :
    (iblk0 (F := Ideal) V c 2 t : Vec Ideal S2000x1 .f32) (ix2 p (0 : Fin 1)) = (V c main_v8 : S50000x1.Idx → EReal) (ix2 r (0 : Fin 1)) := by
  obtain ⟨-, -, ⟨e0, e1⟩, -⟩ := idx_rows t
  unfold iblk0
  rw [View.read_apply]
  show V c main_v8 _ = V c main_v8 _
  congr 1
  funext a
  apply Fin.ext
  match a with
  | ⟨0, _⟩ => show win0_2.index t (0 : Fin 2) * 2000 + 1 * p.val = r.val; rw [e0, hr]; omega
  | ⟨1, _⟩ => show win0_2.index t (1 : Fin 2) * 1 + 1 * 0 = 0; rw [e1]

/-- The self-weight window's block is the whole matrix. -/
theorem wsblk_eq (c : Dev nD) (t : Fin cfg0.N) :
    (iblk0 (F := Ideal) V c 3 t : Vec Ideal S256x256 .f32) = (V c main_arg3 : S256x256.Idx → EReal) := by
  obtain ⟨⟨e0, e1⟩, -⟩ := idx_whole t
  funext y
  unfold iblk0
  rw [View.read_apply]
  show V c main_arg3 _ = V c main_arg3 _
  congr 1
  funext a
  apply Fin.ext
  match a with
  | ⟨0, _⟩ => show win0_3.index t (0 : Fin 2) * 256 + 1 * (y 0).val = (y 0).val; rw [e0]; omega
  | ⟨1, _⟩ => show win0_3.index t (1 : Fin 2) * 256 + 1 * (y 1).val = (y 1).val; rw [e1]; omega

/-- The neighbour-weight window's block is the whole matrix. -/
theorem wnblk_eq (c : Dev nD) (t : Fin cfg0.N) :
    (iblk0 (F := Ideal) V c 4 t : Vec Ideal S256x256 .f32) = (V c main_arg4 : S256x256.Idx → EReal) := by
  obtain ⟨-, ⟨e0, e1⟩, -⟩ := idx_whole t
  funext y
  unfold iblk0
  rw [View.read_apply]
  show V c main_arg4 _ = V c main_arg4 _
  congr 1
  funext a
  apply Fin.ext
  match a with
  | ⟨0, _⟩ => show win0_4.index t (0 : Fin 2) * 256 + 1 * (y 0).val = (y 0).val; rw [e0]; omega
  | ⟨1, _⟩ => show win0_4.index t (1 : Fin 2) * 256 + 1 * (y 1).val = (y 1).val; rw [e1]; omega

/-- The bias window's block is the whole vector. -/
theorem bblk_eq (c : Dev nD) (t : Fin cfg0.N) :
    (iblk0 (F := Ideal) V c 5 t : Vec Ideal S256 .f32) = (V c main_arg5 : S256.Idx → EReal) := by
  obtain ⟨-, -, e0, -⟩ := idx_whole t
  funext y
  unfold iblk0
  rw [View.read_apply]
  show V c main_arg5 _ = V c main_arg5 _
  congr 1
  funext a
  apply Fin.ext
  match a with
  | ⟨0, _⟩ => show win0_5.index t (0 : Fin 1) * 256 + 1 * (y 0).val = (y 0).val; rw [e0]; omega

/-- The projection-weight window's block is the whole matrix. -/
theorem w2blk_eq (c : Dev nD) (t : Fin cfg0.N) :
    (iblk0 (F := Ideal) V c 6 t : Vec Ideal S256x128 .f32) = (V c main_arg7 : S256x128.Idx → EReal) := by
  obtain ⟨-, -, -, ⟨e0, e1⟩⟩ := idx_whole t
  funext y
  unfold iblk0
  rw [View.read_apply]
  show V c main_arg7 _ = V c main_arg7 _
  congr 1
  funext a
  apply Fin.ext
  match a with
  | ⟨0, _⟩ => show win0_6.index t (0 : Fin 2) * 256 + 1 * (y 0).val = (y 0).val; rw [e0]; omega
  | ⟨1, _⟩ => show win0_6.index t (1 : Fin 2) * 128 + 1 * (y 1).val = (y 1).val; rw [e1]; omega

/-! ## The hidden value of a block is the hidden layer at the block's rows -/

/-- Over any blocks that hold row r of the arrays at their row p, and the whole weights, the block's hidden value at
    (p, q) is the hidden layer at (r, q). -/
theorem hiddenBlk_eq (X S : Cert.Sage.SNx256.Idx → EReal) (D : Cert.Sage.SNx1.Idx → EReal)
    (Ws Wn : Cert.Sage.SW256.Idx → EReal) (B : Cert.Sage.SB256.Idx → EReal)
    (d : Vec Ideal S2000x1 .f32) (s x : Vec Ideal S2000x256 .f32) (ws wn : Vec Ideal S256x256 .f32) (b : Vec Ideal S256 .f32)
    (p : Fin 2000) (r : Fin 50000)
    (hx : ∀ l : Fin 256, x (ix2 p l) = X (ix2 r l)) (hs : ∀ l : Fin 256, s (ix2 p l) = S (ix2 r l))
    (hd : d (ix2 p (0 : Fin 1)) = D (ix2 r (0 : Fin 1))) (hws : ws = Ws) (hwn : wn = Wn) (hb : b = B) (q : Fin 256) :
    hiddenBlk d s x ws wn b p q = Cert.Sage.hiddenAt X S D Ws Wn B r q := by
  subst hws hwn hb
  unfold hiddenBlk Cert.Sage.hiddenAt
  rw [hd]
  simp only [hx, hs]

/-- The hidden value of the blocks at point t, at (p, q), is the hidden layer of the arrays at (2000·t + p, q). -/
theorem hiddenBlk_at (c : Dev nD) (t : Fin cfg0.N) (p : Fin 2000) (q : Fin 256) (r : Fin 50000)
    (hr : r.val = 2000 * t.val + p.val) :
    hiddenBlk (iblk0 (F := Ideal) V c 2 t) (iblk0 (F := Ideal) V c 1 t) (iblk0 (F := Ideal) V c 0 t)
        (iblk0 (F := Ideal) V c 3 t) (iblk0 (F := Ideal) V c 4 t) (iblk0 (F := Ideal) V c 5 t) p q
      = Cert.Sage.hiddenAt (V c main_arg0) (V c main_v18) (V c main_v8) (V c main_arg3) (V c main_arg4) (V c main_arg5) r q :=
  hiddenBlk_eq (V c main_arg0) (V c main_v18) (V c main_v8) (V c main_arg3) (V c main_arg4) (V c main_arg5)
    (iblk0 (F := Ideal) V c 2 t) (iblk0 (F := Ideal) V c 1 t) (iblk0 (F := Ideal) V c 0 t)
    (iblk0 (F := Ideal) V c 3 t) (iblk0 (F := Ideal) V c 4 t) (iblk0 (F := Ideal) V c 5 t) p r
    (fun l => xblk_apply V c t p l r hr) (fun l => sblk_apply V c t p l r hr) (dblk_apply V c t p r hr)
    (wsblk_eq V c t) (wnblk_eq V c t) (bblk_eq V c t) q

end Cert.KernelIdeal.Layer1

end
-- ==== Proof.Layer1Value.lean ====
/-
  The two arrays the layer-1 region leaves: the hidden layer and its projection.

  At grid point t the body stores, into its block of the hidden array, the hidden value of the blocks it holds, and
  into its block of the projection array the product of that block with the projection weights.  The blocks it holds
  are rows 2000·t … 2000·t + 1999 of the node arrays and the whole weights, so what point t writes back is rows
  2000·t … 2000·t + 1999 of the hidden layer  H[r, k] = max (Σ_l X[r, l]·Ws[l, k] + Σ_l (S[r, l]·D[r, 0])·Wn[l, k] + b[k]) 0
  of the arrays, and of its projection  T[r, g] = Σ_k H[r, k]·W[k, g].  The 25 blocks cover the 50000 rows, so after
  the region each array is that function everywhere.
-/
import proofs.«180790_j71236327571567_2_alg».proof.Proof.Gen.KernelIdeal.Frame
import proofs.«180790_j71236327571567_2_alg».proof.Proof.Spec
import proofs.«180790_j71236327571567_2_alg».proof.Proof.Layer1Blocks
import Idealize.ShloMosaic.Lib.Pipeline.Value

noncomputable section

open scoped BigOperators
open Idealize.ShloMosaic Idealize.ShloMosaic.TcCoe Idealize.SL.Sem Idealize.ShloMosaic.ValueIdx

namespace Cert.KernelIdeal.Layer1

open Cert.KernelIdeal Cert.KernelIdeal.Gen

/-- The zero offsets of a rank-2 block. -/
theorem hz : (![0, 0] : Fin 2 → Nat) = fun _ => 0 := funext fun a => by fin_cases a <;> rfl

/-- The zero offset of a rank-1 block. -/
theorem hz1 : (![0] : Fin 1 → Nat) = fun _ => 0 := funext fun a => by fin_cases a <;> rfl

section
variable (V : (c : Dev nD) → (b : Ref sig .tc) → Buf (Elt Ideal) ((c : Thread nD τ).loc b))

/-! ## What a point writes back -/

/-- Point t writes back, to the hidden array, block t of the hidden layer of the arrays the region finds. -/
theorem flushedH_eq (c : Dev nD) (t : Fin cfg0.N) :
    (dat0 (F := Ideal) V c).flushed 7 t = ((cfg0.win 7).blk t).view.read (Elt Ideal)
      (Cert.Sage.hidden (V c main_arg0) (V c main_v18) (V c main_v8) (V c main_arg3) (V c main_arg4) (V c main_arg5)) := by
  show (cfg0.win 7).cut (grid0.coords t) ((dat0 (F := Ideal) V c).after 7 t) = _
  rw [after0_7]
  unfold out0_7
  rw [View.canon_unit_zero hz]
  simp only [View.ld_unit_zero (S := S2000x256) hz, View.ld_unit_zero (S := S2000x1) hz,
    View.ld_unit_zero (S := S256x256) hz, View.ld_unit_zero (S := S256) hz1]
  obtain ⟨-, -, -, ⟨e0, e1⟩, -⟩ := idx_rows t
  have hN : cfg0.N = 25 := N_0
  have ht : t.val < 25 := hN ▸ t.isLt
  funext j
  obtain ⟨p, hp⟩ : ∃ p : Fin 2000, p.val = (j 0).val := ⟨⟨(j 0).val, (j 0).isLt⟩, rfl⟩
  obtain ⟨q, hq⟩ : ∃ q : Fin 256, q.val = (j 1).val := ⟨⟨(j 1).val, (j 1).isLt⟩, rfl⟩
  obtain ⟨r, hr⟩ : ∃ r : Fin 50000, r.val = 2000 * t.val + p.val := ⟨⟨2000 * t.val + p.val, by have := p.isLt; omega⟩, rfl⟩
  have hj : (cfg0.win 7).xinj (grid0.coords t) j = ix2 p q := funext fun a => Fin.ext (by
    match a with
    | ⟨0, _⟩ => exact hp.symm
    | ⟨1, _⟩ => exact hq.symm)
  have hemb : ((cfg0.win 7).blk t).view.emb j = ix2 r q := funext fun a => Fin.ext (by
    match a with
    | ⟨0, _⟩ => show win0_7.index t (0 : Fin 2) * 2000 + 1 * (j 0).val = r.val; rw [e0, hr, hp]; omega
    | ⟨1, _⟩ => show win0_7.index t (1 : Fin 2) * 256 + 1 * (j 1).val = q.val; rw [e1, hq]; omega)
  rw [View.read_apply]
  show k0_pay1 (F := Ideal) _ _ _ _ _ _ ((cfg0.win 7).xinj (grid0.coords t) j) = Cert.Sage.hidden _ _ _ _ _ _ (((cfg0.win 7).blk t).view.emb j)
  rw [hj, hemb]
  refine (pay1_apply (iblk0 (F := Ideal) V c 2 t) (iblk0 (F := Ideal) V c 1 t) (iblk0 (F := Ideal) V c 0 t)
    (iblk0 (F := Ideal) V c 3 t) (iblk0 (F := Ideal) V c 4 t) (iblk0 (F := Ideal) V c 5 t) p q).trans ?_
  exact hiddenBlk_at V c t p q r hr

/-- Point t writes back, to the projection array, block t of the projection of the hidden layer. -/
theorem flushedT_eq (c : Dev nD) (t : Fin cfg0.N) :
    (dat0 (F := Ideal) V c).flushed 8 t = ((cfg0.win 8).blk t).view.read (Elt Ideal)
      (Cert.Sage.proj (Cert.Sage.hidden (V c main_arg0) (V c main_v18) (V c main_v8) (V c main_arg3) (V c main_arg4) (V c main_arg5))
        (V c main_arg7)) := by
  show (cfg0.win 8).cut (grid0.coords t) ((dat0 (F := Ideal) V c).after 8 t) = _
  rw [after0_8]
  unfold out0_8
  rw [View.canon_unit_zero hz]
  simp only [View.ld_unit_zero (S := S2000x256) hz, View.ld_unit_zero (S := S2000x1) hz,
    View.ld_unit_zero (S := S256x256) hz, View.ld_unit_zero (S := S256) hz1, View.ld_unit_zero (S := S256x128) hz]
  obtain ⟨-, -, -, -, ⟨e0, e1⟩⟩ := idx_rows t
  have hN : cfg0.N = 25 := N_0
  have ht : t.val < 25 := hN ▸ t.isLt
  funext j
  obtain ⟨p, hp⟩ : ∃ p : Fin 2000, p.val = (j 0).val := ⟨⟨(j 0).val, (j 0).isLt⟩, rfl⟩
  obtain ⟨g, hg⟩ : ∃ g : Fin 128, g.val = (j 1).val := ⟨⟨(j 1).val, (j 1).isLt⟩, rfl⟩
  obtain ⟨r, hr⟩ : ∃ r : Fin 50000, r.val = 2000 * t.val + p.val := ⟨⟨2000 * t.val + p.val, by have := p.isLt; omega⟩, rfl⟩
  have hj : (cfg0.win 8).xinj (grid0.coords t) j = ix2 p g := funext fun a => Fin.ext (by
    match a with
    | ⟨0, _⟩ => exact hp.symm
    | ⟨1, _⟩ => exact hg.symm)
  have hemb : ((cfg0.win 8).blk t).view.emb j = ix2 r g := funext fun a => Fin.ext (by
    match a with
    | ⟨0, _⟩ => show win0_8.index t (0 : Fin 2) * 2000 + 1 * (j 0).val = r.val; rw [e0, hr, hp]; omega
    | ⟨1, _⟩ => show win0_8.index t (1 : Fin 2) * 128 + 1 * (j 1).val = g.val; rw [e1, hg]; omega)
  rw [View.read_apply]
  show k0_pay2 (F := Ideal) _ _ _ _ _ _ _ ((cfg0.win 8).xinj (grid0.coords t) j) = Cert.Sage.proj _ _ (((cfg0.win 8).blk t).view.emb j)
  rw [hj, hemb]
  refine (pay2_apply (iblk0 (F := Ideal) V c 2 t) (iblk0 (F := Ideal) V c 1 t) (iblk0 (F := Ideal) V c 0 t)
    (iblk0 (F := Ideal) V c 3 t) (iblk0 (F := Ideal) V c 4 t) (iblk0 (F := Ideal) V c 5 t) (iblk0 (F := Ideal) V c 6 t) p g).trans ?_
  show _ = ∑ k : Fin 256, Cert.Sage.hiddenAt (V c main_arg0) (V c main_v18) (V c main_v8) (V c main_arg3) (V c main_arg4) (V c main_arg5) r k
    * (V c main_arg7 : S256x128.Idx → EReal) (ix2 k g)
  exact Finset.sum_congr rfl fun k _ =>
    congrArg₂ (· * ·) (hiddenBlk_at V c t p k r hr) (congrFun (w2blk_eq V c t) (ix2 k g))

end

/-! ## The 25 blocks cover the 50000 rows: row i is in block i / 2000 -/

/-- Every entry of the hidden array is in the block of the point its row names. -/
theorem coverH (i : S50000x256.Idx) :
    ∃ t : Fin cfg0.N, (cfg0.win 7).flush t = true ∧ i ∈ ((cfg0.win 7).blk t).view.set := by
  have hi0 : (i 0).val < 50000 := (i 0).isLt
  have hi1 : (i 1).val < 256 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, ⟨e0, e1⟩, -⟩ := idx_rows t
  refine ⟨t, flush0_7 t, ?_⟩
  show i ∈ ((View.whole main_v19_0).slice (win0_7.rect t)).set
  rw [View.set_slice_whole, Rect.mem_set_unit]
  intro a
  match a with
  | ⟨0, _⟩ =>
    show win0_7.index t (0 : Fin 2) * 2000 ≤ (i 0).val ∧ (i 0).val < win0_7.index t (0 : Fin 2) * 2000 + 2000
    rw [e0, ht]; omega
  | ⟨1, _⟩ =>
    show win0_7.index t (1 : Fin 2) * 256 ≤ (i 1).val ∧ (i 1).val < win0_7.index t (1 : Fin 2) * 256 + 256
    rw [e1]; omega

/-- Every entry of the projection array is in the block of the point its row names. -/
theorem coverT (i : S50000x128.Idx) :
    ∃ t : Fin cfg0.N, (cfg0.win 8).flush t = true ∧ i ∈ ((cfg0.win 8).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, ⟨e0, e1⟩⟩ := idx_rows t
  refine ⟨t, flush0_8 t, ?_⟩
  show i ∈ ((View.whole main_v19_1).slice (win0_8.rect t)).set
  rw [View.set_slice_whole, Rect.mem_set_unit]
  intro a
  match a with
  | ⟨0, _⟩ =>
    show win0_8.index t (0 : Fin 2) * 2000 ≤ (i 0).val ∧ (i 0).val < win0_8.index t (0 : Fin 2) * 2000 + 2000
    rw [e0, ht]; omega
  | ⟨1, _⟩ =>
    show win0_8.index t (1 : Fin 2) * 128 ≤ (i 1).val ∧ (i 1).val < win0_8.index t (1 : Fin 2) * 128 + 128
    rw [e1]; omega

/-! ## The arrays after the region -/

/-- After the layer-1 region the hidden array is the hidden layer of the arrays the region found. -/
theorem hidden_array (V : (c : Dev nD) → (b : Ref sig .tc) → Buf (Elt Ideal) ((c : Thread nD τ).loc b)) (c : Dev nD) :
    (dat0 (F := Ideal) V c).arrAt 7 cfg0.N
      = Cert.Sage.hidden (V c main_arg0) (V c main_v18) (V c main_v8) (V c main_arg3) (V c main_arg4) (V c main_arg5) :=
  (dat0 (F := Ideal) V c).arrAt_eq_of_cover 7
    (Cert.Sage.hidden (V c main_arg0) (V c main_v18) (V c main_v8) (V c main_arg3) (V c main_arg4) (V c main_arg5))
    (fun t _ => flushedH_eq V c t) (fun i => coverH i)

/-- After the layer-1 region the projection array is the projection of that hidden layer by the neighbour weights of
    the second layer. -/
theorem proj_array (V : (c : Dev nD) → (b : Ref sig .tc) → Buf (Elt Ideal) ((c : Thread nD τ).loc b)) (c : Dev nD) :
    (dat0 (F := Ideal) V c).arrAt 8 cfg0.N
      = Cert.Sage.proj (Cert.Sage.hidden (V c main_arg0) (V c main_v18) (V c main_v8) (V c main_arg3) (V c main_arg4) (V c main_arg5))
          (V c main_arg7) :=
  (dat0 (F := Ideal) V c).arrAt_eq_of_cover 8
    (Cert.Sage.proj (Cert.Sage.hidden (V c main_arg0) (V c main_v18) (V c main_v8) (V c main_arg3) (V c main_arg4) (V c main_arg5))
      (V c main_arg7))
    (fun t _ => flushedT_eq V c t) (fun i => coverT i)

end Cert.KernelIdeal.Layer1

end
-- ==== Proof.Layer2Payload.lean ====
/-
  The output layer's arithmetic on one block of 2000 rows.

  A block of the output is computed from the matching blocks h (2000×256) of the hidden layer, st (2000×128) of the
  aggregated projection and d (2000×1) of the mean factor, and from the whole weight matrix w (256×128) and bias b (128):
      block(p, g) = Σ_k h(p, k)·w(k, g) + st(p, g)·d(p, 0) + b(g).
  The product is a plain 2000×256 by 256×128 matrix product into a zero accumulator (the change of float format on its
  operands is the identity on extended reals), the column d is repeated along the 128 columns, and the bias, viewed as
  a single row, is repeated along the 2000 rows.
-/
import proofs.«180790_j71236327571567_2_alg».proof.Proof.Gen.KernelIdeal.Skeleton
import proofs.«180790_j71236327571567_2_alg».proof.Proof.LibColumn
import proofs.«180790_j71236327571567_2_alg».proof.Proof.LibPlainDot
import Idealize.ShloMosaic.Lib.ValueLayout

noncomputable section

open scoped BigOperators
open Idealize.ShloMosaic Idealize.ShloMosaic.ValueIdx

namespace Cert.KernelIdeal.Layer2

open Cert.KernelIdeal Cert.KernelIdeal.Gen

/-- The block product's dimension numbers are those of a plain M×K by K×N product: contract the left operand's columns
    with the right operand's rows, no batch axes. -/
theorem dot_eq_plain : dot_S2000x256_S256x128_S2000x128_1_0_0_1_n_n = DotDims.plain 2000 256 128 := rfl

/-- The block product at entry (p, g): the sum over k of h(p, k)·w(k, g). -/
theorem blockProduct_apply (h : Vec Ideal S2000x256 .f32) (w : Vec Ideal S256x128 .f32) (p : Fin 2000) (g : Fin 128) :
    matmul (F := Ideal) dot_S2000x256_S256x128_S2000x128_1_0_0_1_n_n none
        (truncf .bf16 (shapeCast S2000x256 h shapeCasts_S2000x256_S2000x256) bitsLt_bf16_f32)
        (truncf .bf16 w bitsLt_bf16_f32) (constant S2000x128 .f32 0x00000000#32) (ix2 p g)
      = ∑ k : Fin 256, h (ix2 p k) * w (ix2 k g) := by
  rw [dot_eq_plain, shapeCast_self]
  exact Cert.LibPlainDot.matmul_zero_apply none _ _ p g

/-- The mean-factor column repeated along the columns, at (p, g): the column's entry of row p. -/
theorem columnSpread_apply (d : Vec Ideal S2000x1 .f32) (p : Fin 2000) (g : Fin 128) :
    broadcastTo S2000x128 (shapeCast S2000x1 d shapeCasts_S2000x1_S2000x1) broadcasts_S2000x1_S2000x128 (ix2 p g)
      = d (ix2 p (0 : Fin 1)) := by
  rw [shapeCast_self]
  exact Cert.LibColumn.broadcastTo_a1_ab_apply d broadcasts_S2000x1_S2000x128 p g

/-- The bias viewed as one row and repeated along the rows, at (p, g): the bias at g. -/
theorem biasSpread_apply (b : Vec Ideal S128 .f32) (p : Fin 2000) (g : Fin 128) :
    broadcastTo S2000x128 (shapeCast S1x128 b shapeCasts_S128_S1x128) broadcasts_S1x128_S2000x128 (ix2 p g)
      = b (ix1 g) :=
  (broadcastTo_1b_ab_apply (shapeCast S1x128 b shapeCasts_S128_S1x128) broadcasts_S1x128_S2000x128 p g).trans
    (shapeCast_a_1a_apply b shapeCasts_S128_S1x128 (0 : Fin 1) g)

/-- THE BLOCK'S ENTRY (p, g): Σ_k h(p, k)·w(k, g) + st(p, g)·d(p, 0) + b(g). -/
theorem pay_apply (h : Vec Ideal S2000x256 .f32) (w : Vec Ideal S256x128 .f32) (st : Vec Ideal S2000x128 .f32)
    (d : Vec Ideal S2000x1 .f32) (b : Vec Ideal S128 .f32) (p : Fin 2000) (g : Fin 128) :
    k1_pay1 h w st d b (ix2 p g)
      = (∑ k : Fin 256, h (ix2 p k) * w (ix2 k g)) + st (ix2 p g) * d (ix2 p (0 : Fin 1)) + b (ix1 g) := by
  unfold k1_pay1
  simp only [addf_apply, mulf_apply]
  rw [blockProduct_apply, columnSpread_apply, biasSpread_apply, shapeCast_self]

end Cert.KernelIdeal.Layer2

end
-- ==== Proof.Layer2Value.lean ====
/-
  The output layer, from row blocks to the whole array.

  The second kernel visits the 25 row blocks of 2000 rows in turn.  At block t it reads rows 2000·t … 2000·t + 1999 of
  the hidden layer H (50000×256), of the aggregated projection St (50000×128) and of the mean factor D (50000×1), the
  whole weight matrix W2s (256×128) and the whole bias b2 (128), and writes rows 2000·t … 2000·t + 1999 of the output:
  row p of the block is row 2000·t + p of the arrays.  By the block's arithmetic, entry (p, g) of what block t writes is
      Σ_k H[2000·t + p, k]·W2s[k, g] + St[2000·t + p, g]·D[2000·t + p, 0] + b2[g],
  the output layer at row 2000·t + p.  Row r lies in block r / 2000, so the 25 blocks cover the 50000 rows and the
  array ends holding the output layer everywhere.
-/
import proofs.«180790_j71236327571567_2_alg».proof.Proof.Gen.KernelIdeal.Frame
import proofs.«180790_j71236327571567_2_alg».proof.Proof.Spec
import proofs.«180790_j71236327571567_2_alg».proof.Proof.Layer2Payload
import Idealize.ShloMosaic.Lib.Pipeline.Value

noncomputable section

open scoped BigOperators
open Idealize.ShloMosaic Idealize.ShloMosaic.TcCoe Idealize.SL.Sem
open Idealize.ShloMosaic.ValueIdx

namespace Cert.KernelIdeal.Layer2

open Cert.KernelIdeal Cert.KernelIdeal.Gen

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- What one point leaves in the output's buffer, at entry (p, g), from the blocks it read. -/
theorem out_block_apply (h : Vec Ideal S2000x256 .f32) (st : Vec Ideal S2000x128 .f32) (d : Vec Ideal S2000x1 .f32)
    (w : Vec Ideal S256x128 .f32) (b : Vec Ideal S128 .f32) (p : Fin 2000) (g : Fin 128) :
    out1_5 h st d w b (ix2 p g)
      = (∑ k : Fin 256, h (ix2 p k) * w (ix2 k g)) + st (ix2 p g) * d (ix2 p (0 : Fin 1)) + b (ix1 g) := by
  unfold out1_5
  rw [View.canon_unit_zero zero2]
  simp only [View.ld_unit_zero (S := S2000x256) zero2, View.ld_unit_zero (S := S2000x128) zero2,
    View.ld_unit_zero (S := S2000x1) zero2, View.ld_unit_zero (S := S256x128) zero2, View.ld_unit_zero (S := S128) zero1]
  exact pay_apply h w st d b p g

/-- The block indices over the grid: the three row-blocked inputs and the output are at row block t, column block 0;
    the weight matrix and the bias are always at block 0. -/
theorem block_indices : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- Row p of the hidden layer's block t is row 2000·t + p of the hidden layer. -/
theorem hidden_block (c : Dev nD) (t : Fin cfg1.N) (p : Fin 2000) (k : Fin 256) (r : Fin 50000)
    (hr : r.val = 2000 * t.val + p.val) :
    (iblk1 (F := Ideal) V c 0 t : Vec Ideal S2000x256 .f32) (ix2 p k)
      = (V c main_v19_0 : S50000x256.Idx → EReal) (ix2 r k) := by
  obtain ⟨e0, e1, -⟩ := block_indices t
  unfold iblk1
  rw [View.read_apply]
  show V c main_v19_0 _ = V c main_v19_0 _
  refine congrArg _ (funext fun a => Fin.ext ?_)
  match a with
  | ⟨0, _⟩ => show win1_0.index t (0 : Fin 2) * 2000 + 1 * p.val = r.val; rw [e0, hr]; omega
  | ⟨1, _⟩ => show win1_0.index t (1 : Fin 2) * 256 + 1 * k.val = k.val; rw [e1]; omega

/-- Row p of the aggregated projection's block t is row 2000·t + p of the aggregated projection. -/
theorem aggregated_block (c : Dev nD) (t : Fin cfg1.N) (p : Fin 2000) (g : Fin 128) (r : Fin 50000)
    (hr : r.val = 2000 * t.val + p.val) :
    (iblk1 (F := Ideal) V c 1 t : Vec Ideal S2000x128 .f32) (ix2 p g)
      = (V c main_v29 : S50000x128.Idx → EReal) (ix2 r g) := by
  obtain ⟨-, -, e0, e1, -⟩ := block_indices t
  unfold iblk1
  rw [View.read_apply]
  show V c main_v29 _ = V c main_v29 _
  refine congrArg _ (funext fun a => Fin.ext ?_)
  match a with
  | ⟨0, _⟩ => show win1_1.index t (0 : Fin 2) * 2000 + 1 * p.val = r.val; rw [e0, hr]; omega
  | ⟨1, _⟩ => show win1_1.index t (1 : Fin 2) * 128 + 1 * g.val = g.val; rw [e1]; omega

/-- Row p of the mean factor's block t is row 2000·t + p of the mean factor. -/
theorem factor_block (c : Dev nD) (t : Fin cfg1.N) (p : Fin 2000) (u : Fin 1) (r : Fin 50000)
    (hr : r.val = 2000 * t.val + p.val) :
    (iblk1 (F := Ideal) V c 2 t : Vec Ideal S2000x1 .f32) (ix2 p u)
      = (V c main_v8 : S50000x1.Idx → EReal) (ix2 r u) := by
  obtain ⟨-, -, -, -, e0, e1, -⟩ := block_indices t
  unfold iblk1
  rw [View.read_apply]
  show V c main_v8 _ = V c main_v8 _
  refine congrArg _ (funext fun a => Fin.ext ?_)
  match a with
  | ⟨0, _⟩ => show win1_2.index t (0 : Fin 2) * 2000 + 1 * p.val = r.val; rw [e0, hr]; omega
  | ⟨1, _⟩ => show win1_2.index t (1 : Fin 2) * 1 + 1 * u.val = u.val; rw [e1]; omega

/-- The weight matrix's block at every point is the whole weight matrix. -/
theorem weight_block (c : Dev nD) (t : Fin cfg1.N) (k : Fin 256) (g : Fin 128) :
    (iblk1 (F := Ideal) V c 3 t : Vec Ideal S256x128 .f32) (ix2 k g)
      = (V c main_arg6 : S256x128.Idx → EReal) (ix2 k g) := by
  obtain ⟨-, -, -, -, -, -, e0, e1, -⟩ := block_indices t
  unfold iblk1
  rw [View.read_apply]
  show V c main_arg6 _ = V c main_arg6 _
  refine congrArg _ (funext fun a => Fin.ext ?_)
  match a with
  | ⟨0, _⟩ => show win1_3.index t (0 : Fin 2) * 256 + 1 * k.val = k.val; rw [e0]; omega
  | ⟨1, _⟩ => show win1_3.index t (1 : Fin 2) * 128 + 1 * g.val = g.val; rw [e1]; omega

/-- The bias's block at every point is the whole bias. -/
theorem bias_block (c : Dev nD) (t : Fin cfg1.N) (g : Fin 128) :
    (iblk1 (F := Ideal) V c 4 t : Vec Ideal S128 .f32) (ix1 g) = (V c main_arg8 : S128.Idx → EReal) (ix1 g) := by
  obtain ⟨-, -, -, -, -, -, -, -, e0, -⟩ := block_indices t
  unfold iblk1
  rw [View.read_apply]
  show V c main_arg8 _ = V c main_arg8 _
  refine congrArg _ (funext fun a => Fin.ext ?_)
  match a with
  | ⟨0, _⟩ => show win1_4.index t (0 : Fin 1) * 128 + 1 * g.val = g.val; rw [e0]; omega

/-- Entry (p, g) of the output's block t sits in the output array at row 2000·t + p, column g. -/
theorem out_block_emb (t : Fin cfg1.N) (p : Fin 2000) (g : Fin 128) (r : Fin 50000)
    (hr : r.val = 2000 * t.val + p.val) :
    (((cfg1.win 5).blk t).view.emb (ix2 p g) : S50000x128.Idx) = ix2 r g := by
  obtain ⟨-, -, -, -, -, -, -, -, -, e0, e1⟩ := block_indices t
  refine funext fun a => Fin.ext ?_
  match a with
  | ⟨0, _⟩ => show win1_5.index t (0 : Fin 2) * 2000 + 1 * p.val = r.val; rw [e0, hr]; omega
  | ⟨1, _⟩ => show win1_5.index t (1 : Fin 2) * 128 + 1 * g.val = g.val; rw [e1]; omega

/-- WHAT POINT t WRITES BACK is block t of the output layer of the arrays as the region finds them. -/
theorem written_block (c : Dev nD) (t : Fin cfg1.N) :
    (dat1 (F := Ideal) V c).flushed 5 t
      = ((cfg1.win 5).blk t).view.read (Elt Ideal)
          (Cert.Sage.out (V c main_v19_0) (V c main_v29) (V c main_v8) (V c main_arg6) (V c main_arg8)) := by
  show (cfg1.win 5).cut (grid1.coords t) ((dat1 (F := Ideal) V c).after 5 t) = _
  rw [after1_5]
  funext j
  obtain ⟨p, g, rfl⟩ : ∃ (p : Fin 2000) (g : Fin 128), j = ix2 p g := ⟨j 0, j 1, eq_ix2 j⟩
  have ht : t.val < 25 := Nat.lt_of_lt_of_eq t.isLt N_1
  obtain ⟨r, hr⟩ : ∃ r : Fin 50000, r.val = 2000 * t.val + p.val := ⟨⟨2000 * t.val + p.val, by omega⟩, rfl⟩
  rw [View.read_apply, out_block_emb t p g r hr]
  refine (out_block_apply (iblk1 (F := Ideal) V c 0 t) (iblk1 (F := Ideal) V c 1 t) (iblk1 (F := Ideal) V c 2 t)
    (iblk1 (F := Ideal) V c 3 t) (iblk1 (F := Ideal) V c 4 t) p g).trans ?_
  rw [aggregated_block V c t p g r hr, factor_block V c t p 0 r hr, bias_block V c t g]
  show _ = Cert.Sage.outAt (V c main_v19_0) (V c main_v29) (V c main_v8) (V c main_arg6) (V c main_arg8) r g
  unfold Cert.Sage.outAt
  refine congrArg (fun s => s + _ + _) (Finset.sum_congr rfl fun k _ => ?_)
  rw [hidden_block V c t p k r hr, weight_block V c t k g]

/-- An index of the output array is in point t's block iff each coordinate is in the block's range on its axis. -/
theorem mem_out_block (t : Fin cfg1.N) (i : S50000x128.Idx) :
    i ∈ ((cfg1.win 5).blk t).view.set
      ↔ ∀ a : Fin 2, win1_5.index t a * S2000x128.size a ≤ (i a).val
          ∧ (i a).val < win1_5.index t a * S2000x128.size a + S2000x128.size a := by
  show i ∈ ((View.whole main_v30).slice (win1_5.rect t)).set ↔ _
  rw [View.set_slice_whole, Rect.mem_set_unit]
  exact Iff.rfl

/-- Every index of the output array is in some point's block: row r is in block r / 2000. -/
theorem rows_covered (i : S50000x128.Idx) :
    ∃ t : Fin cfg1.N, (cfg1.win 5).flush t = true ∧ i ∈ ((cfg1.win 5).blk t).view.set := by
  have hi0 : (i 0).val < 50000 := (i 0).isLt
  have hi1 : (i 1).val < 128 := (i 1).isLt
  obtain ⟨t, ht⟩ : ∃ t : Fin cfg1.N, t.val = (i 0).val / 2000 :=
    ⟨⟨(i 0).val / 2000, by rw [show cfg1.N = 25 from N_1]; omega⟩, rfl⟩
  obtain ⟨-, -, -, -, -, -, -, -, -, e0, e1⟩ := block_indices t
  refine ⟨t, flush1_5 t, ?_⟩
  rw [mem_out_block]
  intro a
  match a with
  | ⟨0, _⟩ =>
    show win1_5.index t (0 : Fin 2) * 2000 ≤ (i 0).val ∧ (i 0).val < win1_5.index t (0 : Fin 2) * 2000 + 2000
    rw [e0, ht]; omega
  | ⟨1, _⟩ =>
    show win1_5.index t (1 : Fin 2) * 128 ≤ (i 1).val ∧ (i 1).val < win1_5.index t (1 : Fin 2) * 128 + 128
    rw [e1]; omega

/-- THE OUTPUT ARRAY after the second kernel's run is the output layer of the arrays as the region finds them. -/
theorem out_array (V : (c : Dev nD) → (b : Ref sig .tc) → Buf (Elt Ideal) ((c : Thread nD τ).loc b)) (c : Dev nD) :
    (dat1 (F := Ideal) V c).arrAt 5 cfg1.N
      = Cert.Sage.out (V c main_v19_0) (V c main_v29) (V c main_v8) (V c main_arg6) (V c main_arg8) :=
  (dat1 (F := Ideal) V c).arrAt_eq_of_cover 5 _ (fun t _ => written_block V c t) rows_covered

end Cert.KernelIdeal.Layer2

end
-- ==== Proof.KernelValue.lean ====
/-
  The kernel program's result as the first arrangement of the network.

  The result buffer is the second kernel's output array, which is the output layer of: the first kernel's first
  output (the hidden layer of the node features, their aggregate and the mean factor), the aggregate of the first
  kernel's second output (the projection of the hidden layer by the neighbour weight), the mean factor, the self
  weight and the bias.  Each array is read back to the argument arrays through the host operations around the kernels.
-/
import proofs.«180790_j71236327571567_2_alg».proof.Proof.HostAgg
import proofs.«180790_j71236327571567_2_alg».proof.Proof.Layer1Value
import proofs.«180790_j71236327571567_2_alg».proof.Proof.Layer2Value
import proofs.«180790_j71236327571567_2_alg».proof.Proof.RunResult

set_option maxRecDepth 16384

noncomputable section

namespace Cert.KernelIdeal.KernelValue

open Cert.KernelIdeal Cert.KernelIdeal.Gen Cert.KernelIdeal.HostValue
open Idealize.ShloMosaic Idealize.ShloMosaic.TcCoe Idealize.SL.Sem
open Cert.Sage Cert.SageModel

variable (m : (ℓ : Loc nD τ sig) → Buf (Elt Ideal) ℓ) (ρ : Dev nD → PrngReg) (c : Dev nD)

/-- The first kernel's first output: the hidden layer. -/
theorem hidden_out : (W2 m ρ c (Proc.devRef .tc main_v19_0) : S50000x256.Idx → EReal)
    = hiddenK (m ((c : Thread nD τ).loc main_arg0)) (srcIdx (m ((c : Thread nD τ).loc main_arg1)))
        (dstIdx (m ((c : Thread nD τ).loc main_arg2))) (m ((c : Thread nD τ).loc main_arg3))
        (m ((c : Thread nD τ).loc main_arg4)) (m ((c : Thread nD τ).loc main_arg5)) := by
  refine (W2_arr m ρ c 7).trans ((Cert.KernelIdeal.Layer1.hidden_array (V1 m ρ) c).trans ?_)
  rw [V1_arg0, V1_v18, V1_v8, V1_arg3, V1_arg4, V1_arg5, aggFeat_eq, meanCol_eq]
  rfl

/-- The first kernel's second output: the hidden layer projected by the neighbour weight. -/
theorem proj_out : (W2 m ρ c (Proc.devRef .tc main_v19_1) : S50000x128.Idx → EReal)
    = proj (hiddenK (m ((c : Thread nD τ).loc main_arg0)) (srcIdx (m ((c : Thread nD τ).loc main_arg1)))
        (dstIdx (m ((c : Thread nD τ).loc main_arg2))) (m ((c : Thread nD τ).loc main_arg3))
        (m ((c : Thread nD τ).loc main_arg4)) (m ((c : Thread nD τ).loc main_arg5))) (m ((c : Thread nD τ).loc main_arg7)) := by
  refine (W2_arr m ρ c 8).trans ((Cert.KernelIdeal.Layer1.proj_array (V1 m ρ) c).trans ?_)
  rw [V1_arg0, V1_v18, V1_v8, V1_arg3, V1_arg4, V1_arg5, V1_arg7, aggFeat_eq, meanCol_eq]
  rfl

/-- THE KERNEL PROGRAM'S RESULT is the first arrangement. -/
theorem result_eq : (W4 m ρ c (Proc.devRef .tc main_v30) : S50000x128.Idx → EReal)
    = kernelOut (m ((c : Thread nD τ).loc main_arg0)) (srcIdx (m ((c : Thread nD τ).loc main_arg1)))
        (dstIdx (m ((c : Thread nD τ).loc main_arg2))) (m ((c : Thread nD τ).loc main_arg3))
        (m ((c : Thread nD τ).loc main_arg4)) (m ((c : Thread nD τ).loc main_arg5))
        (m ((c : Thread nD τ).loc main_arg6)) (m ((c : Thread nD τ).loc main_arg7)) (m ((c : Thread nD τ).loc main_arg8)) := by
  refine (W4_arr m ρ c 5).trans ((Cert.KernelIdeal.Layer2.out_array (V3 m ρ) c).trans ?_)
  rw [V3_v19_0, V3_v29, V3_v8, V3_arg6, V3_arg8, W2_arg6, W2_arg8, W2_v8, W2_arg1, W2_arg2, hidden_out, proj_out,
    aggProj_eq, meanCol_eq]
  rfl

/-- The kernel program's run with its result named: every weakly fair execution terminates, the result array holds the
    first arrangement of the argument arrays, and the arguments end unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v30)
        = kernelOut (m ((c.tc : Thread nD τ).loc main_arg0)) (srcIdx (m ((c.tc : Thread nD τ).loc main_arg1)))
            (dstIdx (m ((c.tc : Thread nD τ).loc main_arg2))) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c => ⟨(h c).1.trans (result_eq m ρ c), (h c).2⟩) (Cert.KernelIdeal.GenP.frame_result m ρ)

end Cert.KernelIdeal.KernelValue

end
-- ==== Proof.RefValue.lean ====
/-
  The reference program's result as the second arrangement of the network.

  Stage by stage: the gathers and scatter-adds are the edge aggregation, the scatter-add of ones is the in-degree, the
  maximum with one clamps it, the two broadcasts spread the clamped degree over a row, the quotient is the mean, the
  two products with a bias and a maximum with zero make the hidden layer, and the second layer repeats the pattern
  with no maximum.  Read at (r, g) the final stage is `Cert.SageModel.refOutAt` of the hidden layer `hiddenRefAt`.
-/
import proofs.«180790_j71236327571567_2_alg».proof.Proof.Gen.ReferenceIdeal.Read
import proofs.«180790_j71236327571567_2_alg».proof.Proof.Model

noncomputable section

open scoped BigOperators

namespace Cert.ReferenceIdeal.RefValue

open Cert.ReferenceIdeal Cert.ReferenceIdeal.Gen Cert.ReferenceIdeal.Read
open Idealize.ShloMosaic Idealize.ShloMosaic.ValueIdx
open Cert.Sage Cert.LibEdgeAgg Cert.SageModel

/-! ## The printed dimension records are the segment-sum, row-gather and count records -/

theorem sd256_eq : scatter_S50000x256_S800000x1_S800000x256_1_0_0_1
    = Cert.LibSegPool.poolDims 50000 800000 256 Facts₀.scatter_S50000x256_S800000x1_S800000x256_1_0_0_1_wf := rfl

theorem gd256_eq : gather_S50000x256_S800000x1_S800000x256_1_0_n_n_0_1_1256
    = Cert.LibGatherRows.rowsDims 50000 256 800000 Facts₀.gather_S50000x256_S800000x1_S800000x256_1_0_n_n_0_1_1256_wf := rfl

theorem sdv_eq : scatter_S50000_S800000x1_S800000_n_0_0_1
    = Cert.LibGraphOps.vecScatterDims 50000 800000 Facts₀.scatter_S50000_S800000x1_S800000_n_0_0_1_wf := rfl

/-! ## The edge positions: every copy of the two index chains is one array -/

theorem v31_eq (x1 : (⟨S800000, .i32⟩ : BufTy).Contents (Elt Ideal)) : val_main_v31 (F := Ideal) x1 = val_main_v5 (F := Ideal) x1 := rfl
theorem v12_eq (x2 : (⟨S800000, .i32⟩ : BufTy).Contents (Elt Ideal)) : val_main_v12 (F := Ideal) x2 = val_main_v8 (F := Ideal) x2 := rfl
theorem v34_eq (x2 : (⟨S800000, .i32⟩ : BufTy).Contents (Elt Ideal)) : val_main_v34 (F := Ideal) x2 = val_main_v8 (F := Ideal) x2 := rfl
theorem v38_eq (x2 : (⟨S800000, .i32⟩ : BufTy).Contents (Elt Ideal)) : val_main_v38 (F := Ideal) x2 = val_main_v8 (F := Ideal) x2 := rfl

/-! ## Constants -/

theorem v7_zero (i : S50000x256.Idx) : val_main_v7 (F := Ideal) i = 0 := by
  rw [val_main_v7_apply, val_main_cst_apply]; exact Ideal.ofBits_zero_f32
theorem v33_zero (i : S50000x256.Idx) : val_main_v33 (F := Ideal) i = 0 := by
  rw [val_main_v33_apply, val_main_cst_6_apply]; exact Ideal.ofBits_zero_f32
theorem v11_zero (i : S50000.Idx) : val_main_v11 (F := Ideal) i = 0 := by
  rw [val_main_v11_apply, val_main_cst_2_apply]; exact Ideal.ofBits_zero_f32
theorem v37_zero (i : S50000.Idx) : val_main_v37 (F := Ideal) i = 0 := by
  rw [val_main_v37_apply, val_main_cst_8_apply]; exact Ideal.ofBits_zero_f32
theorem v10_one (i : S800000.Idx) : val_main_v10 (F := Ideal) i = 1 := by
  rw [val_main_v10_apply, val_main_cst_1_apply]; exact Cert.LibRecipDiv.ofBits_one_f32
theorem v36_one (i : S800000.Idx) : val_main_v36 (F := Ideal) i = 1 := by
  rw [val_main_v36_apply, val_main_cst_7_apply]; exact Cert.LibRecipDiv.ofBits_one_f32
theorem v14_one (i : S50000.Idx) : val_main_v14 (F := Ideal) i = 1 := by
  rw [val_main_v14_apply, val_main_cst_3_apply]; exact Cert.LibRecipDiv.ofBits_one_f32
theorem v40_one (i : S50000.Idx) : val_main_v40 (F := Ideal) i = 1 := by
  rw [val_main_v40_apply, val_main_cst_9_apply]; exact Cert.LibRecipDiv.ofBits_one_f32

/-! ## The aggregation stages -/

/-- Gather rows of a 256-column array at the source positions and scatter-add them at the destinations. -/
theorem agg256_apply (Y z : (⟨S50000x256, .f32⟩ : BufTy).Contents (Elt Ideal)) (hz : ∀ i, z i = 0)
    (x1 x2 : (⟨S800000, .i32⟩ : BufTy).Contents (Elt Ideal)) (s : Fin 50000) (f : Fin 256) :
    Host.scatterAdd (F := Ideal) (φ := .f32) scatter_S50000x256_S800000x1_S800000x256_1_0_0_1 z (val_main_v8 (F := Ideal) x2)
        (Host.gather gather_S50000x256_S800000x1_S800000x256_1_0_n_n_0_1_1256 Y (val_main_v5 (F := Ideal) x1)) (ix2 s f)
      = aggAt hN (val_main_v5 (F := Ideal) x1) (val_main_v8 (F := Ideal) x2) Y s f := by
  rw [sd256_eq, gd256_eq]
  exact agg_apply hN _ _ _ _ z hz Y s f

theorem v9_apply (x0 : (⟨S50000x256, .f32⟩ : BufTy).Contents (Elt Ideal)) (x1 x2 : (⟨S800000, .i32⟩ : BufTy).Contents (Elt Ideal))
    (s : Fin 50000) (f : Fin 256) :
    val_main_v9 (F := Ideal) x0 x1 x2 (ix2 s f) = aggAt hN (val_main_v5 (F := Ideal) x1) (val_main_v8 (F := Ideal) x2) x0 s f := by
  unfold val_main_v9 val_main_v6
  exact agg256_apply x0 _ v7_zero x1 x2 s f

theorem v35_apply (x0 : (⟨S50000x256, .f32⟩ : BufTy).Contents (Elt Ideal)) (x1 x2 : (⟨S800000, .i32⟩ : BufTy).Contents (Elt Ideal))
    (x3 x4 : (⟨S256x256, .f32⟩ : BufTy).Contents (Elt Ideal)) (x5 : (⟨S256, .f32⟩ : BufTy).Contents (Elt Ideal))
    (s : Fin 50000) (f : Fin 256) :
    val_main_v35 (F := Ideal) x0 x1 x2 x3 x4 x5 (ix2 s f)
      = aggAt hN (val_main_v5 (F := Ideal) x1) (val_main_v8 (F := Ideal) x2) (val_main_v25 (F := Ideal) x0 x1 x2 x3 x4 x5) s f := by
  unfold val_main_v35 val_main_v32
  rw [v31_eq, v34_eq]
  exact agg256_apply _ _ v33_zero x1 x2 s f

/-- Scatter-add ones at the destinations: the in-degree. -/
theorem deg_read (z : (⟨S50000, .f32⟩ : BufTy).Contents (Elt Ideal)) (hz : ∀ i, z i = 0)
    (u : (⟨S800000, .f32⟩ : BufTy).Contents (Elt Ideal)) (hu : ∀ i, u i = 1)
    (x2 : (⟨S800000, .i32⟩ : BufTy).Contents (Elt Ideal)) (s : Fin 50000) :
    Host.scatterAdd (F := Ideal) (φ := .f32) scatter_S50000_S800000x1_S800000_n_0_0_1 z (val_main_v8 (F := Ideal) x2) u (ix1 s)
      = degAt (val_main_v8 (F := Ideal) x2) s := by
  rw [sdv_eq]
  exact deg_apply _ _ z hz u hu s

theorem v13_apply (x2 : (⟨S800000, .i32⟩ : BufTy).Contents (Elt Ideal)) (s : Fin 50000) :
    val_main_v13 (F := Ideal) x2 (ix1 s) = degAt (val_main_v8 (F := Ideal) x2) s := by
  unfold val_main_v13
  rw [v12_eq]
  exact deg_read _ v11_zero _ v10_one x2 s

theorem v39_apply (x2 : (⟨S800000, .i32⟩ : BufTy).Contents (Elt Ideal)) (s : Fin 50000) :
    val_main_v39 (F := Ideal) x2 (ix1 s) = degAt (val_main_v8 (F := Ideal) x2) s := by
  unfold val_main_v39
  rw [v38_eq]
  exact deg_read _ v37_zero _ v36_one x2 s

/-- The clamped in-degree spread over a row. -/
theorem v17_read (x2 : (⟨S800000, .i32⟩ : BufTy).Contents (Elt Ideal)) (r : Fin 50000) (l : Fin 256) :
    val_main_v17 (F := Ideal) x2 (ix2 r l) = clampDeg (val_main_v8 (F := Ideal) x2) r := by
  rw [val_main_v17_apply, val_main_v16_apply, val_main_v15_apply]
  have e : idx_main_v16 (idx_main_v17 (ix2 r l)) = ix1 r := funext fun a => Fin.ext (by match a with | ⟨0, _⟩ => rfl)
  rw [e, v13_apply, v14_one]
  rfl

theorem v43_read (x2 : (⟨S800000, .i32⟩ : BufTy).Contents (Elt Ideal)) (r : Fin 50000) (l : Fin 256) :
    val_main_v43 (F := Ideal) x2 (ix2 r l) = clampDeg (val_main_v8 (F := Ideal) x2) r := by
  rw [val_main_v43_apply, val_main_v42_apply, val_main_v41_apply]
  have e : idx_main_v42 (idx_main_v43 (ix2 r l)) = ix1 r := funext fun a => Fin.ext (by match a with | ⟨0, _⟩ => rfl)
  rw [e, v39_apply, v40_one]
  rfl

/-! ## The hidden layer and the result -/

/-- The reference's hidden layer is `hiddenRefAt`. -/
theorem hidden_eq (x0 : (⟨S50000x256, .f32⟩ : BufTy).Contents (Elt Ideal)) (x1 x2 : (⟨S800000, .i32⟩ : BufTy).Contents (Elt Ideal))
    (x3 x4 : (⟨S256x256, .f32⟩ : BufTy).Contents (Elt Ideal)) (x5 : (⟨S256, .f32⟩ : BufTy).Contents (Elt Ideal)) :
    val_main_v25 (F := Ideal) x0 x1 x2 x3 x4 x5
      = arr2 (hiddenRefAt x0 (val_main_v5 (F := Ideal) x1) (val_main_v8 (F := Ideal) x2) x3 x4 x5) := by
  funext i
  obtain ⟨r, k, rfl⟩ : ∃ (r : Fin 50000) (k : Fin 256), i = ix2 r k := ⟨i 0, i 1, eq_ix2 i⟩
  rw [arr2_ix2, val_main_v25_apply, val_main_v24_apply, val_main_v21_apply, val_main_v19_apply, val_main_v20_apply,
    val_main_v23_apply, val_main_v22_apply, val_main_call0_v0_apply, val_main_call0_cst_apply]
  have el19 : ∀ l : Fin 256, lidx_main_v19 (ix2 r k) l = ix2 r l := fun l =>
    funext fun a => Fin.ext (by match a with | ⟨0, _⟩ => rfl | ⟨1, _⟩ => rfl)
  have er19 : ∀ l : Fin 256, ridx_main_v19 (ix2 r k) l = ix2 l k := fun l =>
    funext fun a => Fin.ext (by match a with | ⟨0, _⟩ => rfl | ⟨1, _⟩ => rfl)
  have el20 : ∀ l : Fin 256, lidx_main_v20 (ix2 r k) l = ix2 r l := fun l =>
    funext fun a => Fin.ext (by match a with | ⟨0, _⟩ => rfl | ⟨1, _⟩ => rfl)
  have er20 : ∀ l : Fin 256, ridx_main_v20 (ix2 r k) l = ix2 l k := fun l =>
    funext fun a => Fin.ext (by match a with | ⟨0, _⟩ => rfl | ⟨1, _⟩ => rfl)
  have eb : idx_main_v22 (idx_main_v23 (ix2 r k)) = ix1 k := funext fun a => Fin.ext (by match a with | ⟨0, _⟩ => rfl)
  have e18 : ∀ l : Fin 256, val_main_v18 (F := Ideal) x0 x1 x2 (ix2 r l)
      = Ideal.div (aggAt hN (val_main_v5 (F := Ideal) x1) (val_main_v8 (F := Ideal) x2) x0 r l) (clampDeg (val_main_v8 (F := Ideal) x2) r) := fun l => by
    rw [val_main_v18_apply, v9_apply, v17_read]; rfl
  simp only [el19, er19, el20, er20, eb, e18]
  unfold hiddenRefAt
  rw [show (FloatOps.ofBits (F := Ideal) .f32 0x00000000#32 : EReal) = 0 from Ideal.ofBits_zero_f32]
  rfl

/-- THE REFERENCE'S RESULT is the second arrangement. -/
theorem result_eq (x0 : (⟨S50000x256, .f32⟩ : BufTy).Contents (Elt Ideal)) (x1 x2 : (⟨S800000, .i32⟩ : BufTy).Contents (Elt Ideal))
    (x3 x4 : (⟨S256x256, .f32⟩ : BufTy).Contents (Elt Ideal)) (x5 : (⟨S256, .f32⟩ : BufTy).Contents (Elt Ideal))
    (x6 x7 : (⟨S256x128, .f32⟩ : BufTy).Contents (Elt Ideal)) (x8 : (⟨S128, .f32⟩ : BufTy).Contents (Elt Ideal)) :
    val_main_v50 (F := Ideal) x0 x1 x2 x3 x4 x5 x6 x7 x8
      = arr2 (refOutAt (arr2 (hiddenRefAt x0 (val_main_v5 (F := Ideal) x1) (val_main_v8 (F := Ideal) x2) x3 x4 x5))
          (val_main_v5 (F := Ideal) x1) (val_main_v8 (F := Ideal) x2) x6 x7 x8) := by
  funext i
  obtain ⟨r, g, rfl⟩ : ∃ (r : Fin 50000) (g : Fin 128), i = ix2 r g := ⟨i 0, i 1, eq_ix2 i⟩
  rw [arr2_ix2, val_main_v50_apply, val_main_v47_apply, val_main_v45_apply, val_main_v46_apply,
    val_main_v49_apply, val_main_v48_apply]
  have el45 : ∀ l : Fin 256, lidx_main_v45 (ix2 r g) l = ix2 r l := fun l =>
    funext fun a => Fin.ext (by match a with | ⟨0, _⟩ => rfl | ⟨1, _⟩ => rfl)
  have er45 : ∀ l : Fin 256, ridx_main_v45 (ix2 r g) l = ix2 l g := fun l =>
    funext fun a => Fin.ext (by match a with | ⟨0, _⟩ => rfl | ⟨1, _⟩ => rfl)
  have el46 : ∀ l : Fin 256, lidx_main_v46 (ix2 r g) l = ix2 r l := fun l =>
    funext fun a => Fin.ext (by match a with | ⟨0, _⟩ => rfl | ⟨1, _⟩ => rfl)
  have er46 : ∀ l : Fin 256, ridx_main_v46 (ix2 r g) l = ix2 l g := fun l =>
    funext fun a => Fin.ext (by match a with | ⟨0, _⟩ => rfl | ⟨1, _⟩ => rfl)
  have eb : idx_main_v48 (idx_main_v49 (ix2 r g)) = ix1 g := funext fun a => Fin.ext (by match a with | ⟨0, _⟩ => rfl)
  have e44 : ∀ l : Fin 256, val_main_v44 (F := Ideal) x0 x1 x2 x3 x4 x5 (ix2 r l)
      = Ideal.div (aggAt hN (val_main_v5 (F := Ideal) x1) (val_main_v8 (F := Ideal) x2) (val_main_v25 (F := Ideal) x0 x1 x2 x3 x4 x5) r l)
          (clampDeg (val_main_v8 (F := Ideal) x2) r) := fun l => by
    rw [val_main_v44_apply, v35_apply, v43_read]; rfl
  simp only [el45, er45, el46, er46, eb, e44]
  rw [hidden_eq]
  rfl

end Cert.ReferenceIdeal.RefValue

end
-- ==== Proof.LibRealEntry.lean ====
/-
  Finiteness of an extended real, as the comparison a precondition prints.

  On the extended reals |a| = max a (−a) is +∞ at both infinities, so the ordered comparison |a| < +∞ — against the
  binary32 pattern of +∞ — holds exactly of the real numbers.
-/
import Idealize.ShloMosaic.PureOps.Ideal

noncomputable section

namespace Cert.LibRealEntry

open Idealize.ShloMosaic

/-- An extended real whose absolute value compares below the pattern of +∞ is a real number. -/
theorem real_of_abs_lt (a : EReal)
    (h : Ideal.cmp .olt (max a (-a)) (Ideal.ofBits .f32 0x7F800000#32) = 1#1) : ∃ r : ℝ, a = (r : EReal) := by
  have hinf : Ideal.ofBits .f32 0x7F800000#32 = ⊤ := by simp [Ideal.ofBits, Ideal.ieee]
  rw [hinf] at h
  induction a using EReal.rec with
  | bot => simp [Ideal.cmp] at h
  | coe r => exact ⟨r, rfl⟩
  | top => simp [Ideal.cmp] at h

end Cert.LibRealEntry

end
-- ==== Proof.Finite.lean ====
/-
  The precondition says every float input holds real numbers.

  The precondition is a conjunction, over the seven float arguments, of "every entry's absolute value is below +∞".
  Each conjunct is a reduction by `and` of the element-wise comparison; it is one exactly when every comparison is,
  and an extended real whose absolute value is below +∞ is a real number.
-/
import proofs.«180790_j71236327571567_2_alg».proof.Proof.Gen.Pre_finite_inputs
import proofs.«180790_j71236327571567_2_alg».proof.Proof.LibRealEntry
import proofs.«180790_j71236327571567_2_alg».proof.Proof.LibLoraLaw
import Idealize.ShloMosaic.Lib.ReduceAll
import Idealize.ShloMosaic.Lib.ValueIdx
import Idealize.ShloMosaic.Lib.Pipeline.Value

noncomputable section

namespace Cert.Pre_finite_inputs.Decode

open Cert.Pre_finite_inputs Idealize.ShloMosaic Idealize.ShloMosaic.ValueIdx Cert.LibLoraLaw

instance : Subsingleton S_.Idx := ⟨fun a b => funext fun d => d.elim0⟩

/-- One conjunct: if the `and` of the comparisons |x i| < +∞ over every index is one, every entry of x is real. -/
theorem real_of_all {s : Shape} {axes : List (Fin s.rank)} (x : FVec Ideal s .f32)
    (hb : (S_ : Shape).BroadcastsInDim s ![]) (hr : s.ReducesTo axes S_) (hu : 0 < (S_ : Shape).numel) (j : S_.Idx)
    (e : Host.reduce IntOp.andi
          (cmpf .olt (Host.absf x) (broadcastInDim s ![] hb (constant (F := Ideal) S_ .f32 0x7F800000#32)))
          (constantI S_ 1 1#1) hr hu j = 1#1) (i : s.Idx) : IsReal (x i) := by
  have h1 := Host.reduce_andi_all _ _ hr hu j e i
  have h2 : broadcastInDim s ![] hb (constant (F := Ideal) S_ .f32 0x7F800000#32) i = Ideal.ofBits .f32 0x7F800000#32 :=
    broadcastInDim_apply _ hb _ i ix0 (fun a => a.elim0)
  have h3 : Ideal.cmp .olt (max (x i) (-(x i))) (Ideal.ofBits .f32 0x7F800000#32) = 1#1 := by
    rw [← h2]; exact h1
  exact Cert.LibRealEntry.real_of_abs_lt (x i) h3

/-- THE PRECONDITION DECODED: every float argument is an array of real numbers. -/
theorem reals_of_pre [Cert.Pre_finite_inputs.Facts] (a0 : FVec Ideal S50000x256 .f32) (a1 a2 : IVec S800000 32)
    (a3 a4 : FVec Ideal S256x256 .f32) (a5 : FVec Ideal S256 .f32) (a6 a7 : FVec Ideal S256x128 .f32) (a8 : FVec Ideal S128 .f32)
    (h : fn (F := Ideal) a0 a1 a2 a3 a4 a5 a6 a7 a8 = fun _ => 1#1) :
    (∀ i, IsReal (a0 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) := by
  have h0 := congrFun h ix0
  dsimp only [fn, fn_part1] at h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  exact ⟨real_of_all a0 _ _ _ _ h0, real_of_all a3 _ _ _ _ h3, real_of_all a4 _ _ _ _ h4, real_of_all a5 _ _ _ _ h5,
    real_of_all a6 _ _ _ _ h6, real_of_all a7 _ _ _ _ h7, real_of_all a8 _ _ _ _ h8⟩

end Cert.Pre_finite_inputs.Decode

end
-- ==== Proof.lean ====
/-
  The certificate of a two-layer graph convolution with mean aggregation against its reference.

  The kernel program aggregates the node features over the edges on the host, computes the hidden layer and its
  projection by the second layer's neighbour weight in one kernel, aggregates the projection on the host, and finishes
  the second layer in another kernel.  The reference aggregates the hidden layer itself and projects the mean.  At the
  ideal instance both results are the same array of extended reals whenever the float inputs are real numbers: the
  projection is linear and the mean is a sum scaled by a constant (`Cert.SageModel.kernelOut_eq`).  The frames are
  the generated ones; the idealization rewrote nothing.
-/
import proofs.«180790_j71236327571567_2_alg».proof.Defs
import proofs.«180790_j71236327571567_2_alg».proof.Proof.Gen.Kernel
import proofs.«180790_j71236327571567_2_alg».proof.Proof.Gen.Kernel.Skeleton
import proofs.«180790_j71236327571567_2_alg».proof.Proof.Gen.Kernel.Launch
import proofs.«180790_j71236327571567_2_alg».proof.Proof.Gen.Kernel.Points
import proofs.«180790_j71236327571567_2_alg».proof.Proof.Gen.Kernel.Frame
import proofs.«180790_j71236327571567_2_alg».proof.Proof.Gen.KernelIdeal
import proofs.«180790_j71236327571567_2_alg».proof.Proof.Gen.KernelIdeal.Skeleton
import proofs.«180790_j71236327571567_2_alg».proof.Proof.Gen.KernelIdeal.Launch
import proofs.«180790_j71236327571567_2_alg».proof.Proof.Gen.KernelIdeal.Points
import proofs.«180790_j71236327571567_2_alg».proof.Proof.Gen.KernelIdeal.Frame
import proofs.«180790_j71236327571567_2_alg».proof.Proof.Gen.ReferenceIdeal
import proofs.«180790_j71236327571567_2_alg».proof.Proof.Gen.Pre_finite_inputs
import proofs.«180790_j71236327571567_2_alg».proof.Proof.Gen.ReferenceIdeal.Run
import proofs.«180790_j71236327571567_2_alg».proof.Proof.Gen.ReferenceIdeal.Read
import proofs.«180790_j71236327571567_2_alg».proof.Proof.KernelValue
import proofs.«180790_j71236327571567_2_alg».proof.Proof.RefValue
import proofs.«180790_j71236327571567_2_alg».proof.Proof.Finite
import Idealize.ShloMosaic.Adequacy
import Idealize.ShloMosaic.Init

noncomputable section

namespace Cert.Proof

open Idealize.ShloMosaic Idealize.SL.Sem

theorem frame_p : Cert.frame_Kernel := fun m ρ _ => Cert.Kernel.Gen.frame m ρ

theorem frame_pi : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The two programs lay the source positions out by the same operations. -/
theorem src_eq (x1 : IVec Cert.KernelIdeal.S800000 32) :
    Cert.ReferenceIdeal.Read.val_main_v5 (F := Ideal) x1 = Cert.KernelIdeal.HostValue.srcIdx x1 := rfl

/-- The two programs lay the destination positions out by the same operation. -/
theorem dst_eq (x2 : IVec Cert.KernelIdeal.S800000 32) :
    Cert.ReferenceIdeal.Read.val_main_v8 (F := Ideal) x2 = Cert.KernelIdeal.HostValue.dstIdx x2 := rfl

/-- From memories that agree on the arguments, both programs end with the first arrangement of the argument arrays:
    the kernel program by its run, the reference because its result is the second arrangement and the two agree on the
    real inputs the precondition grants. -/
theorem algebraic : Cert.algebraic_KernelIdeal_ReferenceIdeal := by
  intro m ρ m' ρ' hpre hagree
  refine ⟨_, Cert.KernelIdeal.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h3, h4, h5, -, h7, -⟩ := Cert.Pre_finite_inputs.Decode.reals_of_pre _ _ _ _ _ _ _ _ _ (hpre c)
  rw [Cert.ReferenceIdeal.Read.val_main_v50_eq, Cert.ReferenceIdeal.RefValue.result_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2, src_eq, dst_eq]
  exact (Cert.SageModel.kernelOut_eq _ _ _ _ _ _ _ _ _ h0 h3 h4 h5 h7).symm

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
